-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x19x512x1024 : Shape := ⟨4, ![8, 19, 512, 1024]⟩
abbrev S8x512x1024 : Shape := ⟨3, ![8, 512, 1024]⟩
abbrev S_ : Shape := ⟨0, ![]⟩

class Facts : Prop where
  bcast_S_S8x19x512x1024 : S_.BroadcastsInDim S8x19x512x1024 (![] : Fin 0 → Fin S8x19x512x1024.rank)
  reducesTo_S8x19x512x1024_S_d0_1_2_3 : S8x19x512x1024.ReducesTo [0, 1, 2, 3] S_
  h_S_ : 0 < S_.numel

variable [Facts]

def fn {F : FTy → Type} [FloatOps F] (main_arg0 : FVec F S8x19x512x1024 .f32) (main_arg1 : IVec S8x512x1024 32) : IVec S_ 1 :=
  let main_v0 : FVec F S8x19x512x1024 .f32 := Host.absf main_arg0
  let main_cst : FVec F S_ .f32 := constant S_ .f32 0x7F800000#32
  let main_v1 : FVec F S8x19x512x1024 .f32 := broadcastInDim S8x19x512x1024 ![] bcast_S_S8x19x512x1024 main_cst
  let main_v2 : IVec S8x19x512x1024 1 := cmpf .olt main_v0 main_v1
  let main_c : IVec S_ 1 := constantI S_ 1 1#1
  let main_v3 : IVec S_ 1 := (fun x v => Host.reduce IntOp.andi x v reducesTo_S8x19x512x1024_S_d0_1_2_3 h_S_) main_v2 main_c
  main_v3
-- ==== Kernel.lean ====
abbrev S8x19x512x1024 : Shape := ⟨4, ![8, 19, 512, 1024]⟩
abbrev S8x512x1024 : Shape := ⟨3, ![8, 512, 1024]⟩
abbrev S8x1x128 : Shape := ⟨3, ![8, 1, 128]⟩
abbrev S1x19x256x1024 : Shape := ⟨4, ![1, 19, 256, 1024]⟩
abbrev S1x256x1024 : Shape := ⟨3, ![1, 256, 1024]⟩
abbrev S1x1x128 : Shape := ⟨3, ![1, 1, 128]⟩
abbrev S256x1024 : Shape := ⟨2, ![256, 1024]⟩
abbrev S19x256x1024 : Shape := ⟨3, ![19, 256, 1024]⟩
abbrev S1 : Shape := ⟨1, ![1]⟩
abbrev S1x1x1 : Shape := ⟨3, ![1, 1, 1]⟩
abbrev S8x1x1 : Shape := ⟨3, ![8, 1, 1]⟩
abbrev S8 : Shape := ⟨1, ![8]⟩
abbrev S_ : Shape := ⟨0, ![]⟩

abbrev nBuf : Space → Nat
  | .hbm => 36
  | .vmem => 19
  | .smem => 0
  | _ => 0

abbrev bufTy : (tb : Table) → Fin (tcTables nBuf tb) → BufTy
  | .hbm, ⟨0, _⟩ => ⟨S8x19x512x1024, .f32⟩
  | .hbm, ⟨1, _⟩ => ⟨S8x512x1024, .i32⟩
  | .hbm, ⟨2, _⟩ => ⟨S8x1x128, .f32⟩
  | .hbm, ⟨3, _⟩ => ⟨S8x1x128, .f32⟩
  | .hbm, ⟨4, _⟩ => ⟨S8x1x128, .f32⟩
  | .hbm, ⟨5, _⟩ => ⟨S8x1x128, .f32⟩
  | .hbm, ⟨6, _⟩ => ⟨S8x1x128, .f32⟩
  | .hbm, ⟨7, _⟩ => ⟨S8x1x1, .f32⟩
  | .hbm, ⟨8, _⟩ => ⟨S8, .f32⟩
  | .hbm, ⟨9, _⟩ => ⟨S_, .f32⟩
  | .hbm, ⟨10, _⟩ => ⟨S_, .f32⟩
  | .hbm, ⟨11, _⟩ => ⟨S8x1x1, .f32⟩
  | .hbm, ⟨12, _⟩ => ⟨S8, .f32⟩
  | .hbm, ⟨13, _⟩ => ⟨S_, .f32⟩
  | .hbm, ⟨14, _⟩ => ⟨S_, .f32⟩
  | .hbm, ⟨15, _⟩ => ⟨S8x1x1, .f32⟩
  | .hbm, ⟨16, _⟩ => ⟨S8, .f32⟩
  | .hbm, ⟨17, _⟩ => ⟨S_, .f32⟩
  | .hbm, ⟨18, _⟩ => ⟨S_, .f32⟩
  | .hbm, ⟨19, _⟩ => ⟨S8x1x1, .f32⟩
  | .hbm, ⟨20, _⟩ => ⟨S8, .f32⟩
  | .hbm, ⟨21, _⟩ => ⟨S_, .f32⟩
  | .hbm, ⟨22, _⟩ => ⟨S_, .f32⟩
  | .hbm, ⟨23, _⟩ => ⟨S8x1x1, .f32⟩
  | .hbm, ⟨24, _⟩ => ⟨S8, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .local _ .vmem, ⟨0, _⟩ => ⟨S1x19x256x1024, .f32⟩
  | .local _ .vmem, ⟨1, _⟩ => ⟨S1x19x256x1024, .f32⟩
  | .local _ .vmem, ⟨2, _⟩ => ⟨S1x256x1024, .i32⟩
  | .local _ .vmem, ⟨3, _⟩ => ⟨S1x256x1024, .i32⟩
  | .local _ .vmem, ⟨4, _⟩ => ⟨S1x1x128, .f32⟩
  | .local _ .vmem, ⟨5, _⟩ => ⟨S1x1x128, .f32⟩
  | .local _ .vmem, ⟨6, _⟩ => ⟨S1x1x128, .f32⟩
  | .local _ .vmem, ⟨7, _⟩ => ⟨S1x1x128, .f32⟩
  | .local _ .vmem, ⟨8, _⟩ => ⟨S1x1x128, .f32⟩
  | .local _ .vmem, ⟨9, _⟩ => ⟨S1x1x128, .f32⟩
  | .local _ .vmem, ⟨10, _⟩ => ⟨S1x1x128, .f32⟩
  | .local _ .vmem, ⟨11, _⟩ => ⟨S1x1x128, .f32⟩
  | .local _ .vmem, ⟨12, _⟩ => ⟨S1x1x128, .f32⟩
  | .local _ .vmem, ⟨13, _⟩ => ⟨S1x1x128, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | _, _ => ⟨S8x19x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v0_3 : Ref sig .tc := ⟨.hbm, 5, rfl⟩
abbrev main_v0_4 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 2], ![false, false]⟩

def k0_cond2 (i : grid0.Coords) : BitVec 1 :=
  let arg1 : BitVec 32 := BitVec.ofNat 32 (i 1).val
  let c1_i32 : BitVec 32 := 1#32
  let v68 : BitVec 1 := Scalar.cmpi .eq arg1 c1_i32
  let v69 : BitVec 32 := Scalar.extui v68
  let c0_i32_36 : BitVec 32 := 0#32
  let v70 : BitVec 1 := Scalar.cmpi .ne v69 c0_i32_36
  v70

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x19x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1x19x256x1024_S1x19x256x1024_0_0_0_0 : ∀ a, (![0, 0, 0, 0] : Fin 4 → Nat) a + S1x19x256x1024.size a ≤ S1x19x256x1024.size a
  h_S1x19x256x1024 : 0 < S1x19x256x1024.numel
  shapeCasts_S1x19x256x1024_S19x256x1024 : S1x19x256x1024.ShapeCasts S19x256x1024
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  iota_S19x256x1024_d0_w32 : S19x256x1024.Iotas .tc 32 [0]
  shapeCasts_S256x1024_S1x256x1024 : S256x1024.ShapeCasts S1x256x1024
  broadcasts_S1x256x1024_S19x256x1024 : S1x256x1024.Broadcasts S19x256x1024
  reduces_S19x256x1024_S256x1024 : S19x256x1024.Reduces [0] S256x1024
  natLt_1_32 : 1 < 32
  reduces_S1x256x1024_S1 : S1x256x1024.Reduces [1, 2] S1
  shapeCasts_S1_S1x1x1 : S1.ShapeCasts S1x1x1
  inpos_S1x1x1_p0_0_0 : ∀ a, (![0, 0, 0] : Fin 3 → Nat) a < S1x1x1.size a
  inb_S1x1x128_S1x1x128_0_0_0 : ∀ a, (![0, 0, 0] : Fin 3 → Nat) a + S1x1x128.size a ≤ S1x1x128.size a
  h_S1x1x128 : 0 < S1x1x128.numel
  slices_S8x1x128_S8x1x1_0_0_0 : S8x1x128.Slices ![0, 0, 0] S8x1x1
  shapeCasts_S8x1x1_S8 : S8x1x1.ShapeCasts S8
  reducesTo_S8_S_d0 : S8.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x19x256x1024.size a ≤ S8x19x512x1024.size a
  hwx0_0 : ∀ i : grid0.Coords, EltTy.bits .f32 = 32 ∨ (Rect.block (s := S8x19x512x1024) S1x19x256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x1024.size a ≤ S8x512x1024.size a
  hwx0_1 : ∀ i : grid0.Coords, EltTy.bits .i32 = 32 ∨ (Rect.block (s := S8x512x1024) S1x256x1024.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x128.size a ≤ S8x1x128.size a
  hwx0_2 : ∀ i : grid0.Coords, EltTy.bits .f32 = 32 ∨ (Rect.block (s := S8x1x128) S1x1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x128.size a ≤ S8x1x128.size a
  hwx0_3 : ∀ i : grid0.Coords, EltTy.bits .f32 = 32 ∨ (Rect.block (s := S8x1x128) S1x1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x128.size a ≤ S8x1x128.size a
  hwx0_4 : ∀ i : grid0.Coords, EltTy.bits .f32 = 32 ∨ (Rect.block (s := S8x1x128) S1x1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x128.size a ≤ S8x1x128.size a
  hwx0_5 : ∀ i : grid0.Coords, EltTy.bits .f32 = 32 ∨ (Rect.block (s := S8x1x128) S1x1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x128.size a ≤ S8x1x128.size a
  hwx0_6 : ∀ i : grid0.Coords, EltTy.bits .f32 = 32 ∨ (Rect.block (s := S8x1x128) S1x1x128.size (cc0_transform_6 i) (hinb0_6 i)).WholeWords (EltTy.packing .f32)

variable [Facts₀]

abbrev win0_0 : Pipeline.Window sig grid0 :=
  Pipeline.Window.ofSpec (Memref.whole main_arg0) S1x19x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x1x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x1x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_2) S1x1x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_3) S1x1x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_4) S1x1x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun i => !(k0_cond2 i == 1#1) | 3 => fun i => !(k0_cond2 i == 1#1) | 4 => fun i => !(k0_cond2 i == 1#1) | 5 => fun i => !(k0_cond2 i == 1#1) | 6 => fun i => !(k0_cond2 i == 1#1) | ⟨_ + 7, h⟩ => absurd h (Nat.not_lt.2 (Nat.le_add_left _ _))

class Facts : Prop extends Facts₀ where

variable [Facts]
-- ==== ReferenceIdeal.lean ====
abbrev S8x19x512x1024 : Shape := ⟨4, ![8, 19, 512, 1024]⟩
abbrev S8x512x1024 : Shape := ⟨3, ![8, 512, 1024]⟩
abbrev S4194304 : Shape := ⟨1, ![4194304]⟩
abbrev S_ : Shape := ⟨0, ![]⟩
abbrev S8x512x1024x19 : Shape := ⟨4, ![8, 512, 1024, 19]⟩
abbrev S4194304x19 : Shape := ⟨2, ![4194304, 19]⟩
abbrev S4194304x1 : Shape := ⟨2, ![4194304, 1]⟩
abbrev S1x19 : Shape := ⟨2, ![1, 19]⟩

abbrev nBuf : Space → Nat
  | .hbm => 81
  | .vmem => 0
  | .smem => 0
  | _ => 0

abbrev bufTy : (tb : Table) → Fin (tcTables nBuf tb) → BufTy
  | .hbm, ⟨0, _⟩ => ⟨S8x19x512x1024, .f32⟩
  | .hbm, ⟨1, _⟩ => ⟨S8x512x1024, .i32⟩
  | .hbm, ⟨2, _⟩ => ⟨S4194304, .i32⟩
  | .hbm, ⟨3, _⟩ => ⟨S_, .i32⟩
  | .hbm, ⟨4, _⟩ => ⟨S4194304, .i32⟩
  | .hbm, ⟨5, _⟩ => ⟨S4194304, .i1⟩
  | .hbm, ⟨6, _⟩ => ⟨S_, .i32⟩
  | .hbm, ⟨7, _⟩ => ⟨S4194304, .i32⟩
  | .hbm, ⟨8, _⟩ => ⟨S4194304, .i1⟩
  | .hbm, ⟨9, _⟩ => ⟨S4194304, .i32⟩
  | .hbm, ⟨10, _⟩ => ⟨S_, .i32⟩
  | .hbm, ⟨11, _⟩ => ⟨S_, .i32⟩
  | .hbm, ⟨12, _⟩ => ⟨S_, .f32⟩
  | .hbm, ⟨13, _⟩ => ⟨S4194304, .i32⟩
  | .hbm, ⟨14, _⟩ => ⟨S_, .i32⟩
  | .hbm, ⟨15, _⟩ => ⟨S_, .i32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S4194304, .f32⟩
  | .hbm, ⟨22, _⟩ => ⟨S4194304, .f32⟩
  | .hbm, ⟨23, _⟩ => ⟨S4194304, .f32⟩
  | .hbm, ⟨24, _⟩ => ⟨S4194304, .f32⟩
  | .hbm, ⟨25, _⟩ => ⟨S4194304, .f32⟩
  | .hbm, ⟨26, _⟩ => ⟨S_, .i32⟩
  | .hbm, ⟨27, _⟩ => ⟨S4194304, .i32⟩
  | .hbm, ⟨28, _⟩ => ⟨S4194304, .i1⟩
  | .hbm, ⟨29, _⟩ => ⟨S_, .i32⟩
  | .hbm, ⟨30, _⟩ => ⟨S4194304, .i32⟩
  | .hbm, ⟨31, _⟩ => ⟨S4194304, .i1⟩
  | .hbm, ⟨32, _⟩ => ⟨S4194304, .i1⟩
  | .hbm, ⟨33, _⟩ => ⟨S4194304, .f32⟩
  | .hbm, ⟨34, _⟩ => ⟨S8x512x1024x19, .f32⟩
  | .hbm, ⟨35, _⟩ => ⟨S4194304x19, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S4194304x19, .f32⟩
  | .hbm, ⟨40, _⟩ => ⟨S4194304x19, .f32⟩
  | .hbm, ⟨41, _⟩ => ⟨S_, .f32⟩
  | .hbm, ⟨42, _⟩ => ⟨S4194304x19, .f32⟩
  | .hbm, ⟨43, _⟩ => ⟨S4194304x19, .f32⟩
  | .hbm, ⟨44, _⟩ => ⟨S4194304x19, .f32⟩
  | .hbm, ⟨45, _⟩ => ⟨S_, .f32⟩
  | .hbm, ⟨46, _⟩ => ⟨S4194304x19, .f32⟩
  | .hbm, ⟨47, _⟩ => ⟨S4194304x19, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S4194304x19, .f32⟩
  | .hbm, ⟨52, _⟩ => ⟨S4194304x19, .f32⟩
  | .hbm, ⟨53, _⟩ => ⟨S_, .f32⟩
  | .hbm, ⟨54, _⟩ => ⟨S4194304x19, .f32⟩
  | .hbm, ⟨55, _⟩ => ⟨S4194304x19, .f32⟩
  | .hbm, ⟨56, _⟩ => ⟨S4194304x19, .f32⟩
  | .hbm, ⟨57, _⟩ => ⟨S4194304x1, .i32⟩
  | .hbm, ⟨58, _⟩ => ⟨S1x19, .i32⟩
  | .hbm, ⟨59, _⟩ => ⟨S4194304x19, .i32⟩
  | .hbm, ⟨60, _⟩ => ⟨S4194304x19, .i32⟩
  | .hbm, ⟨61, _⟩ => ⟨S4194304x19, .i1⟩
  | .hbm, ⟨62, _⟩ => ⟨S4194304x19, .f32⟩
  | .hbm, ⟨63, _⟩ => ⟨S4194304x19, .f32⟩
  | .hbm, ⟨64, _⟩ => ⟨S_, .f32⟩
  | .hbm, ⟨65, _⟩ => ⟨S4194304x19, .f32⟩
  | .hbm, ⟨66, _⟩ => ⟨S4194304x19, .f32⟩
  | .hbm, ⟨67, _⟩ => ⟨S4194304x19, .f32⟩
  | .hbm, ⟨68, _⟩ => ⟨S4194304x19, .f32⟩
  | .hbm, ⟨69, _⟩ => ⟨S4194304x19, .f32⟩
  | .hbm, ⟨70, _⟩ => ⟨S4194304, .f32⟩
  | .hbm, ⟨71, _⟩ => ⟨S4194304x1, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S4194304x19, .f32⟩
  | .hbm, ⟨77, _⟩ => ⟨S4194304x19, .f32⟩
  | .hbm, ⟨78, _⟩ => ⟨S_, .f32⟩
  | .hbm, ⟨79, _⟩ => ⟨S_, .f32⟩
  | .hbm, ⟨80, _⟩ => ⟨S_, .f32⟩
  | _, _ => ⟨S8x19x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c_2 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst : Ref sig .tc := ⟨.hbm, 20, rfl⟩
abbrev main_call0_v0 : Ref sig .tc := ⟨.hbm, 21, rfl⟩
abbrev main_call0_v1 : Ref sig .tc := ⟨.hbm, 22, rfl⟩
abbrev main_v14 : Ref sig .tc := ⟨.hbm, 23, rfl⟩
abbrev main_call1_v0 : Ref sig .tc := ⟨.hbm, 24, rfl⟩
abbrev main_v15 : Ref sig .tc := ⟨.hbm, 25, rfl⟩
abbrev main_c_3 : Ref sig .tc := ⟨.hbm, 26, rfl⟩
abbrev main_v16 : Ref sig .tc := ⟨.hbm, 27, rfl⟩
abbrev main_v17 : Ref sig .tc := ⟨.hbm, 28, rfl⟩
abbrev main_c_4 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_5 : Ref sig .tc := ⟨.hbm, 36, rfl⟩
abbrev main_cst_6 : Ref sig .tc := ⟨.hbm, 37, rfl⟩
abbrev main_call2_v0 : Ref sig .tc := ⟨.hbm, 38, rfl⟩
abbrev main_call2_v1 : Ref sig .tc := ⟨.hbm, 39, rfl⟩
abbrev main_call2_v2 : Ref sig .tc := ⟨.hbm, 40, rfl⟩
abbrev main_call2_v3 : Ref sig .tc := ⟨.hbm, 41, rfl⟩
abbrev main_call2_v4 : Ref sig .tc := ⟨.hbm, 42, rfl⟩
abbrev main_v24 : Ref sig .tc := ⟨.hbm, 43, rfl⟩
abbrev main_v25 : Ref sig .tc := ⟨.hbm, 44, rfl⟩
abbrev main_cst_7 : Ref sig .tc := ⟨.hbm, 45, rfl⟩
abbrev main_v26 : Ref sig .tc := ⟨.hbm, 46, rfl⟩
abbrev main_v27 : Ref sig .tc := ⟨.hbm, 47, rfl⟩
abbrev main_cst_8 : Ref sig .tc := ⟨.hbm, 48, rfl⟩
abbrev main_cst_9 : Ref sig .tc := ⟨.hbm, 49, rfl⟩
abbrev main_call3_v0 : Ref sig .tc := ⟨.hbm, 50, rfl⟩
abbrev main_call3_v1 : Ref sig .tc := ⟨.hbm, 51, rfl⟩
abbrev main_call3_v2 : Ref sig .tc := ⟨.hbm, 52, rfl⟩
abbrev main_call3_v3 : Ref sig .tc := ⟨.hbm, 53, rfl⟩
abbrev main_call3_v4 : Ref sig .tc := ⟨.hbm, 54, rfl⟩
abbrev main_v28 : Ref sig .tc := ⟨.hbm, 55, rfl⟩
abbrev main_v29 : Ref sig .tc := ⟨.hbm, 56, rfl⟩
abbrev main_call4_v0 : Ref sig .tc := ⟨.hbm, 57, rfl⟩
abbrev main_call4_v1 : Ref sig .tc := ⟨.hbm, 58, rfl⟩
abbrev main_call4_v2 : Ref sig .tc := ⟨.hbm, 59, rfl⟩
abbrev main_call4_v3 : Ref sig .tc := ⟨.hbm, 60, rfl⟩
abbrev main_call4_v4 : Ref sig .tc := ⟨.hbm, 61, rfl⟩
abbrev main_v30 : Ref sig .tc := ⟨.hbm, 62, rfl⟩
abbrev main_v31 : Ref sig .tc := ⟨.hbm, 63, rfl⟩
abbrev main_cst_10 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_cst_11 : Ref sig .tc := ⟨.hbm, 72, rfl⟩
abbrev main_v39 : Ref sig .tc := ⟨.hbm, 73, rfl⟩
abbrev main_cst_12 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_cst_13 : Ref sig .tc := ⟨.hbm, 78, rfl⟩
abbrev main_v43 : Ref sig .tc := ⟨.hbm, 79, rfl⟩
abbrev main_v44 : Ref sig .tc := ⟨.hbm, 80, rfl⟩

abbrev nD : Nat := 1
abbrev τ : Topo := Topo.v7x

variable {F : FTy → Type} [FloatOps F]

class Facts₀ : Prop where
  shapeCasts_S8x512x1024_S4194304 : S8x512x1024.ShapeCasts S4194304
  bcast_S_S4194304 : S_.BroadcastsInDim S4194304 (![] : Fin 0 → Fin S4194304.rank)
  natLt_1_32 : 1 < 32
  reducesTo_S4194304_S_d0 : S4194304.ReducesTo [0] S_
  h_S_ : 0 < S_.numel
  transposes_S8x19x512x1024_S8x512x1024x19_0_2_3_1 : S8x19x512x1024.Transposes [0, 2, 3, 1] S8x512x1024x19
  shapeCasts_S8x512x1024x19_S4194304x19 : S8x512x1024x19.ShapeCasts S4194304x19
  bcast_S_S4194304x19 : S_.BroadcastsInDim S4194304x19 (![] : Fin 0 → Fin S4194304x19.rank)
  bcast_S4194304_S4194304x1_0 : S4194304.BroadcastsInDim S4194304x1 (![0] : Fin 1 → Fin S4194304x1.rank)
  bcast_S4194304x1_S4194304x19_0_1 : S4194304x1.BroadcastsInDim S4194304x19 (![0, 1] : Fin 2 → Fin S4194304x19.rank)
  bcast_S1x19_S4194304x19_0_1 : S1x19.BroadcastsInDim S4194304x19 (![0, 1] : Fin 2 → Fin S4194304x19.rank)
  reducesTo_S4194304x19_S_d0_1 : S4194304x19.ReducesTo [0, 1] S_

variable [Facts₀]

class Facts : Prop extends Facts₀ where

variable [Facts]
-- ==== Proof.Spec.lean ====
/-
  The weighted binary cross-entropy, as mathematics on the extended reals.

  A pixel is a triple (n, h, w); its label is a 32-bit word t. The label is "positive" when 0 < t (signed),
  "negative" when t = 0, and "kept" when 0 ≤ t and t ≠ 255. For each of the 19 classes c the class term is
  -log(clip(q)) where q is the probability p when c is the label and 1 - p otherwise, clipped to [ε, 1].
  The loss is
      ( (#neg / (#pos + #neg)) · Σ_{positive kept pixels} Σ_c term  +  (#pos / (#pos + #neg)) · Σ_{negative kept pixels} Σ_c term )
        / ( #kept · 19 ).
  Two arrangements of this number are written down: `result` sums per pixel first (five totals over the
  pixels, then the quotient), `resultR` weighs every (pixel, class) term by the pixel's weight and sums over a
  flat pixel index. `Cert.Spec` only states them; that they agree is proved elsewhere.
-/
import Idealize.ShloMosaic.PureOps.Ideal
import Idealize.ShloMosaic.Lib.ValueIdx

noncomputable section

namespace Cert.Spec

open Idealize.ShloMosaic Idealize.ShloMosaic.ValueIdx
open scoped BigOperators

/-- The probability array, [8, 19, 512, 1024], and the label array, [8, 512, 1024]. -/
abbrev PArr : Type := (⟨4, ![8, 19, 512, 1024]⟩ : Shape).Idx → EReal
abbrev TArr : Type := (⟨3, ![8, 512, 1024]⟩ : Shape).Idx → BitVec 32

/-- The float words the two programs share, read as extended reals: 1, 0, ε (the float nearest 1e-12) and 19. -/
def one : EReal := Ideal.ofBits .f32 0x3F800000#32
def zero : EReal := Ideal.ofBits .f32 0x00000000#32
def eps : EReal := Ideal.ofBits .f32 0x2B8CBCCC#32
def nClasses : EReal := Ideal.ofBits .f32 0x41980000#32

/-- A one-bit word as the number 0 or 1. -/
def ind (b : BitVec 1) : EReal := ((b.toNat : ℝ) : EReal)

/-- The three tests on a label word. -/
def posB (t : BitVec 32) : BitVec 1 := IntOp.cmpi .sgt t 0#32
def negB (t : BitVec 32) : BitVec 1 := IntOp.cmpi .eq t 0#32
def maskB (t : BitVec 32) : BitVec 1 := IntOp.andi (IntOp.cmpi .sge t 0#32) (IntOp.cmpi .ne t 255#32)

/-- log of x clipped to [ε, 1]. -/
def clipLog (x : EReal) : EReal := Ideal.log (min one (max eps x))

/-- The class term, selecting p or 1 - p BEFORE the logarithm. -/
def bceK (p : EReal) (c : Fin 19) (t : BitVec 32) : EReal :=
  zero - clipLog (Scalar.select (IntOp.cmpi .eq (BitVec.ofNat 32 c.val) t) p (one - p))

/-- The class term as a one-hot blend of the two logarithms. -/
def bceR (p : EReal) (c : Fin 19) (t : BitVec 32) : EReal :=
  -(ind (IntOp.cmpi .eq t (BitVec.ofNat 32 c.val)) * clipLog p
    + (one - ind (IntOp.cmpi .eq t (BitVec.ofNat 32 c.val))) * clipLog (one - p))

/-! ## Per pixel first -/

/-- The sum over the classes of a pixel's class terms. -/
def sumBce (P : PArr) (T : TArr) (n : Fin 8) (h : Fin 512) (w : Fin 1024) : EReal :=
  ∑ c : Fin 19, bceK (P (ix4 n c h w)) c (T (ix3 n h w))

def fSpos (P : PArr) (T : TArr) (n : Fin 8) (h : Fin 512) (w : Fin 1024) : EReal :=
  Scalar.select (posB (T (ix3 n h w))) (sumBce P T n h w) zero * ind (maskB (T (ix3 n h w)))
def fSneg (P : PArr) (T : TArr) (n : Fin 8) (h : Fin 512) (w : Fin 1024) : EReal :=
  Scalar.select (negB (T (ix3 n h w))) (sumBce P T n h w) zero * ind (maskB (T (ix3 n h w)))
def fPnum (T : TArr) (n : Fin 8) (h : Fin 512) (w : Fin 1024) : EReal := ind (posB (T (ix3 n h w)))
def fNnum (T : TArr) (n : Fin 8) (h : Fin 512) (w : Fin 1024) : EReal := ind (negB (T (ix3 n h w)))
def fMask (T : TArr) (n : Fin 8) (h : Fin 512) (w : Fin 1024) : EReal := ind (maskB (T (ix3 n h w)))

/-- Row r of the first half of the 512 rows, and row 256 + r of the second half. -/
def lo (r : Fin 256) : Fin 512 := ⟨r.val, by omega⟩
def hi (r : Fin 256) : Fin 512 := ⟨256 + r.val, by omega⟩

/-- A total over all pixels. -/
def tot (f : Fin 8 → Fin 512 → Fin 1024 → EReal) : EReal := ∑ n : Fin 8, ∑ h : Fin 512, ∑ w : Fin 1024, f n h w

/-- The quotient at the end, from the five totals. -/
def tail (sp sn pn nn ms : EReal) : EReal :=
  Ideal.div (Ideal.div nn (pn + nn) * sp + Ideal.div pn (pn + nn) * sn) (ms * nClasses)

def result (P : PArr) (T : TArr) : EReal :=
  tail (tot (fSpos P T)) (tot (fSneg P T)) (tot (fPnum T)) (tot (fNnum T)) (tot (fMask T))

/-! ## Per (pixel, class) term, over a flat pixel index -/

/-- Pixel number i of the flattened [8·512·1024] order is (i / 524288, i / 1024 mod 512, i mod 1024). -/
def pixIdx (i : (⟨1, ![4194304]⟩ : Shape).Idx) : (⟨3, ![8, 512, 1024]⟩ : Shape).Idx :=
  ix3 (⟨(i 0).val / 524288, by have h0 : (i 0).val < 4194304 := (i 0).isLt; omega⟩ : Fin 8)
      (⟨(i 0).val / 1024 % 512, Nat.mod_lt _ (by norm_num)⟩ : Fin 512)
      (⟨(i 0).val % 1024, Nat.mod_lt _ (by norm_num)⟩ : Fin 1024)
def flatT (T : TArr) (i : (⟨1, ![4194304]⟩ : Shape).Idx) : BitVec 32 := T (pixIdx i)
def flatP (P : PArr) (i : (⟨1, ![4194304]⟩ : Shape).Idx) (c : Fin 19) : EReal :=
  P (ix4 (⟨(i 0).val / 524288, by have h0 : (i 0).val < 4194304 := (i 0).isLt; omega⟩ : Fin 8) c
      (⟨(i 0).val / 1024 % 512, Nat.mod_lt _ (by norm_num)⟩ : Fin 512)
      (⟨(i 0).val % 1024, Nat.mod_lt _ (by norm_num)⟩ : Fin 1024))

def posNumR (T : TArr) : EReal := ∑ i : (⟨1, ![4194304]⟩ : Shape).Idx, ind (posB (flatT T i))
def negNumR (T : TArr) : EReal := ∑ i : (⟨1, ![4194304]⟩ : Shape).Idx, ind (negB (flatT T i))
def maskSumR (T : TArr) : EReal := ∑ i : (⟨1, ![4194304]⟩ : Shape).Idx, ind (maskB (flatT T i))

/-- A pixel's weight: the negatives' share on a positive pixel, the positives' share on a negative one, else 0. -/
def wPix (T : TArr) (t : BitVec 32) : EReal :=
  Scalar.select (posB t) (Ideal.div (negNumR T) (posNumR T + negNumR T))
    (Scalar.select (negB t) (Ideal.div (posNumR T) (posNumR T + negNumR T)) zero)

def numR (P : PArr) (T : TArr) : EReal :=
  ∑ j : (⟨2, ![4194304, 19]⟩ : Shape).Idx,
    (wPix T (flatT T (ix1 (j 0))) * ind (maskB (flatT T (ix1 (j 0))))) * bceR (flatP P (ix1 (j 0)) (j 1)) (j 1) (flatT T (ix1 (j 0)))

def resultR (P : PArr) (T : TArr) : EReal := Ideal.div (numR P T) (maskSumR T * nClasses)

end Cert.Spec

end
-- ==== Proof.Math.lean ====
/-
  The two arrangements of the weighted binary cross-entropy agree, as mathematics on the extended reals.

  Every class term is nonnegative (it is minus the logarithm of a number clipped to at most 1), so a weight can be
  moved in and out of sums of class terms whatever its sign or size: on the extended reals w * (a + b) = w * a + w * b
  as soon as a and b are nonnegative. The one-hot blend of the two logarithms is the logarithm of the selected
  probability, the flat pixel index runs over the triples (n, h, w) once each, and the 512 rows are the two halves
  of 256 rows.
-/
import proofs.«155759_j20598663151778_2_alg».proof.Proof.Spec
import Idealize.ShloMosaic.PureOps.Ideal.Laws
import Mathlib.Algebra.BigOperators.Fin
import Mathlib.Logic.Equiv.Fin.Basic

noncomputable section

namespace Cert.Spec

open Idealize.ShloMosaic Idealize.ShloMosaic.ValueIdx
open scoped BigOperators

/-! ## The shared words -/

/-- The word of all zero bits is the real 0. -/
theorem zero_eq : zero = 0 := Ideal.ofBits_zero_f32

/-- The word 0x3F800000 is the real 1. -/
theorem one_eq : one = 1 := by
  simp [one, Ideal.ofBits, Ideal.ieee, -EReal.coe_mul]; norm_num

/-! ## One-bit words -/

theorem ind_zero : ind 0#1 = 0 := by simp [ind]
theorem ind_one : ind 1#1 = 1 := by simp [ind]

/-- A one-bit word reads as 0 or as 1. -/
theorem ind_eq (b : BitVec 1) : (b = 0#1 ∧ ind b = 0) ∨ (b = 1#1 ∧ ind b = 1) := by
  rcases BitVec.eq_zero_or_eq_one b with h | h
  · exact Or.inl ⟨h, h ▸ ind_zero⟩
  · exact Or.inr ⟨h, h ▸ ind_one⟩

theorem ind_nonneg (b : BitVec 1) : 0 ≤ ind b := by
  rcases ind_eq b with ⟨_, h⟩ | ⟨_, h⟩ <;> rw [h]
  exact zero_le_one

/-- Equality of two words is the same bit whichever side each is written on. -/
theorem cmpi_eq_comm (a b : BitVec 32) : IntOp.cmpi .eq a b = IntOp.cmpi .eq b a := by
  unfold IntOp.cmpi
  congr 1
  exact Bool.beq_comm

/-- A positive word is not the zero word: the two tests are never both 1. -/
theorem negB_of_posB {t : BitVec 32} (h : posB t = 1#1) : negB t = 0#1 := by
  unfold negB IntOp.cmpi
  unfold posB IntOp.cmpi at h
  by_cases ht : t = 0#32
  · subst ht
    exact absurd h (by decide)
  · have : (t == 0#32) = false := by simpa using ht
    simp [this]

/-! ## The class term -/

/-- The logarithm of a number at most 1 is at most 0 (it is ⊥ at and below 0). -/
theorem log_nonpos_of_le_one {y : EReal} (hy : y ≤ 1) : Ideal.log y ≤ 0 := by
  induction y using EReal.rec with
  | bot => exact bot_le
  | top => exact absurd (top_le_iff.1 hy) (by rw [← EReal.coe_one]; exact EReal.coe_ne_top 1)
  | coe r =>
    have hr : r ≤ 1 := by exact_mod_cast hy
    show (if r ≤ 0 then (⊥ : EReal) else (Real.log r : EReal)) ≤ 0
    split_ifs with h0
    · exact bot_le
    · exact EReal.coe_nonpos.2 (Real.log_nonpos (le_of_lt (not_le.1 h0)) hr)

/-- The clipped logarithm is at most 0, whatever its argument. -/
theorem clipLog_nonpos (x : EReal) : clipLog x ≤ 0 := by
  unfold clipLog
  exact log_nonpos_of_le_one (one_eq ▸ min_le_left _ _)

/-- The class term, with the words read: minus the clipped logarithm of the selected probability. -/
theorem bceK_eq (p : EReal) (c : Fin 19) (t : BitVec 32) :
    bceK p c t = -clipLog (Scalar.select (IntOp.cmpi .eq (BitVec.ofNat 32 c.val) t) p (one - p)) := by
  unfold bceK
  rw [zero_eq, zero_sub]

/-- Every class term is nonnegative (possibly ⊤). -/
theorem bceK_nonneg (p : EReal) (c : Fin 19) (t : BitVec 32) : 0 ≤ bceK p c t := by
  rw [bceK_eq]
  exact EReal.neg_nonneg.2 (clipLog_nonpos _)

/-- The one-hot blend of the two logarithms is the logarithm of the selected probability. -/
theorem bceR_eq_bceK (p : EReal) (c : Fin 19) (t : BitVec 32) : bceR p c t = bceK p c t := by
  rw [bceK_eq]
  unfold bceR
  rw [cmpi_eq_comm t (BitVec.ofNat 32 c.val)]
  have h11 : (1 : EReal) - 1 = 0 := by
    rw [← EReal.coe_one, ← EReal.coe_sub, sub_self, EReal.coe_zero]
  rcases ind_eq (IntOp.cmpi .eq (BitVec.ofNat 32 c.val) t) with ⟨hb, hi⟩ | ⟨hb, hi⟩
  · rw [hi, hb, select_zero, one_eq, sub_zero, zero_mul, zero_add, one_mul]
  · rw [hi, hb, select_one, one_eq, h11, zero_mul, add_zero, one_mul]

/-! ## Moving a weight through a sum of nonnegative terms -/

/-- For any weight w, and nonnegative terms, w * ∑ x = ∑ w * x. No finiteness is needed. -/
theorem mul_sum_nonneg {ι : Type*} (s : Finset ι) (w : EReal) (x : ι → EReal) (hx : ∀ i ∈ s, 0 ≤ x i) :
    w * ∑ i ∈ s, x i = ∑ i ∈ s, w * x i := by
  classical
  induction s using Finset.induction_on with
  | empty => simp
  | insert a s ha ih =>
    rw [Finset.sum_insert ha, Finset.sum_insert ha,
      EReal.left_distrib_of_nonneg (hx a (Finset.mem_insert_self a s))
        (Finset.sum_nonneg fun i hi => hx i (Finset.mem_insert_of_mem hi)),
      ih fun i hi => hx i (Finset.mem_insert_of_mem hi)]

/-! ## Index sets -/

/-- A rank-1 index set is its coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The three coordinates of pixel number i of the flattened order. -/
def pN (i : (⟨1, ![4194304]⟩ : Shape).Idx) : Fin 8 :=
  ⟨(i 0).val / 524288, by have h0 : (i 0).val < 4194304 := (i 0).isLt; omega⟩
def pH (i : (⟨1, ![4194304]⟩ : Shape).Idx) : Fin 512 := ⟨(i 0).val / 1024 % 512, Nat.mod_lt _ (by norm_num)⟩
def pW (i : (⟨1, ![4194304]⟩ : Shape).Idx) : Fin 1024 := ⟨(i 0).val % 1024, Nat.mod_lt _ (by norm_num)⟩

theorem pixIdx_eq (i : (⟨1, ![4194304]⟩ : Shape).Idx) : pixIdx i = ix3 (pN i) (pH i) (pW i) := rfl
theorem flatT_eq (T : TArr) (i : (⟨1, ![4194304]⟩ : Shape).Idx) : flatT T i = T (ix3 (pN i) (pH i) (pW i)) := rfl
theorem flatP_eq (P : PArr) (i : (⟨1, ![4194304]⟩ : Shape).Idx) (c : Fin 19) :
    flatP P i c = P (ix4 (pN i) c (pH i) (pW i)) := rfl

/-- The flat pixel numbers are the triples (n, h, w), each once: i = n * 524288 + h * 1024 + w. -/
def pixEquiv : (⟨1, ![4194304]⟩ : Shape).Idx ≃ Fin 8 × Fin 512 × Fin 1024 where
  toFun i := (pN i, pH i, pW i)
  invFun q := ix1 (⟨q.1.val * 524288 + q.2.1.val * 1024 + q.2.2.val, by
    have h1 := q.1.isLt; have h2 := q.2.1.isLt; have h3 := q.2.2.isLt; omega⟩ : Fin 4194304)
  left_inv i := by
    have h0 : (i 0).val < 4194304 := (i 0).isLt
    refine Eq.trans ?_ (eq_ix1 i).symm
    refine congrArg ix1 (Fin.ext ?_)
    show (i 0).val / 524288 * 524288 + (i 0).val / 1024 % 512 * 1024 + (i 0).val % 1024 = (i 0).val
    omega
  right_inv q := by
    obtain ⟨n, h, w⟩ := q
    have h1 := n.isLt; have h2 := h.isLt; have h3 := w.isLt
    refine Prod.ext (Fin.ext ?_) (Prod.ext (Fin.ext ?_) (Fin.ext ?_))
    · show (n.val * 524288 + h.val * 1024 + w.val) / 524288 = n.val
      omega
    · show (n.val * 524288 + h.val * 1024 + w.val) / 1024 % 512 = h.val
      omega
    · show (n.val * 524288 + h.val * 1024 + w.val) % 1024 = w.val
      omega

/-- A sum over the flat pixel numbers is the triple sum over (n, h, w). -/
theorem sum_flat {M : Type*} [AddCommMonoid M] (G : Fin 8 → Fin 512 → Fin 1024 → M) :
    ∑ i : (⟨1, ![4194304]⟩ : Shape).Idx, G (pN i) (pH i) (pW i) = ∑ n, ∑ h, ∑ w, G n h w := by
  rw [← Equiv.sum_comp pixEquiv.symm (fun i => G (pN i) (pH i) (pW i)), Fintype.sum_prod_type]
  refine Finset.sum_congr rfl fun n _ => ?_
  rw [Fintype.sum_prod_type]
  refine Finset.sum_congr rfl fun h _ => Finset.sum_congr rfl fun w _ => ?_
  have e := pixEquiv.apply_symm_apply (n, h, w)
  have e1 : pN (pixEquiv.symm (n, h, w)) = n := congrArg Prod.fst e
  have e2 : pH (pixEquiv.symm (n, h, w)) = h := congrArg (fun q => q.2.1) e
  have e3 : pW (pixEquiv.symm (n, h, w)) = w := congrArg (fun q => q.2.2) e
  rw [e1, e2, e3]

/-- A total over all pixels, from the flat order. -/
theorem sum_flat_tot (f : Fin 8 → Fin 512 → Fin 1024 → EReal) :
    ∑ i : (⟨1, ![4194304]⟩ : Shape).Idx, f (pN i) (pH i) (pW i) = tot f := sum_flat f

/-! ## The 512 rows as two halves of 256 -/

theorem sum_halves {M : Type*} [AddCommMonoid M] (g : Fin 512 → M) :
    ∑ h, g h = ∑ r : Fin 256, (g (lo r) + g (hi r)) := by
  rw [Finset.sum_add_distrib]
  exact Fin.sum_univ_add (a := 256) (b := 256) g

theorem tot_eq_halves (f : Fin 8 → Fin 512 → Fin 1024 → EReal) :
    tot f = ∑ n : Fin 8, ∑ r : Fin 256, ∑ w : Fin 1024, (f n (lo r) w + f n (hi r) w) := by
  unfold tot
  refine Finset.sum_congr rfl fun n _ => ?_
  rw [sum_halves (fun h => ∑ w : Fin 1024, f n h w)]
  exact Finset.sum_congr rfl fun r _ => Finset.sum_add_distrib.symm

/-! ## One pixel -/

theorem sumBce_nonneg (P : PArr) (T : TArr) (n : Fin 8) (h : Fin 512) (w : Fin 1024) : 0 ≤ sumBce P T n h w :=
  Finset.sum_nonneg fun c _ => bceK_nonneg _ c _

/-- A selected class sum, masked, is nonnegative. -/
theorem sel_mask_nonneg (b m : BitVec 1) {S : EReal} (hS : 0 ≤ S) : 0 ≤ Scalar.select b S zero * ind m := by
  refine EReal.mul_nonneg ?_ (ind_nonneg m)
  rcases BitVec.eq_zero_or_eq_one b with hb | hb
  · rw [hb, select_zero, zero_eq]
  · rw [hb, select_one]; exact hS

theorem fSpos_nonneg (P : PArr) (T : TArr) (n : Fin 8) (h : Fin 512) (w : Fin 1024) : 0 ≤ fSpos P T n h w :=
  sel_mask_nonneg _ _ (sumBce_nonneg P T n h w)
theorem fSneg_nonneg (P : PArr) (T : TArr) (n : Fin 8) (h : Fin 512) (w : Fin 1024) : 0 ≤ fSneg P T n h w :=
  sel_mask_nonneg _ _ (sumBce_nonneg P T n h w)

/-- A pixel's weight times its masked class sum, split by the pixel's kind: the label is positive, or negative, or
    neither, never two of these. -/
theorem weight_split (t : BitVec 32) (A B M S : EReal) :
    Scalar.select (posB t) A (Scalar.select (negB t) B zero) * (M * S)
      = A * (Scalar.select (posB t) S zero * M) + B * (Scalar.select (negB t) S zero * M) := by
  rw [zero_eq]
  rcases BitVec.eq_zero_or_eq_one (posB t) with hp | hp
  · rcases BitVec.eq_zero_or_eq_one (negB t) with hn | hn
    · rw [hp, hn]; simp only [select_zero]
      rw [zero_mul, zero_mul, mul_zero, mul_zero, add_zero]
    · rw [hp, hn]; simp only [select_zero, select_one]
      rw [zero_mul, mul_zero, zero_add, mul_comm M S]
  · rw [negB_of_posB hp, hp]; simp only [select_zero, select_one]
    rw [zero_mul, mul_zero, add_zero, mul_comm M S]

/-- The weighted class terms of one pixel, summed over the classes. -/
theorem pixel_sum (P : PArr) (T : TArr) (i : (⟨1, ![4194304]⟩ : Shape).Idx) :
    ∑ c : Fin 19, (wPix T (flatT T i) * ind (maskB (flatT T i))) * bceR (flatP P i c) c (flatT T i)
      = Ideal.div (negNumR T) (posNumR T + negNumR T) * fSpos P T (pN i) (pH i) (pW i)
        + Ideal.div (posNumR T) (posNumR T + negNumR T) * fSneg P T (pN i) (pH i) (pW i) := by
  have hS : ∑ c : Fin 19, bceR (flatP P i c) c (flatT T i) = sumBce P T (pN i) (pH i) (pW i) :=
    Finset.sum_congr rfl fun c _ => bceR_eq_bceK _ c _
  rw [← mul_sum_nonneg Finset.univ _ _ (fun c _ => by rw [bceR_eq_bceK]; exact bceK_nonneg _ c _), hS, mul_assoc]
  exact weight_split _ _ _ _ _

/-! ## The totals -/

theorem posNumR_eq (T : TArr) : posNumR T = tot (fPnum T) := sum_flat_tot (fPnum T)
theorem negNumR_eq (T : TArr) : negNumR T = tot (fNnum T) := sum_flat_tot (fNnum T)
theorem maskSumR_eq (T : TArr) : maskSumR T = tot (fMask T) := sum_flat_tot (fMask T)

/-- The weighted sum over all (pixel, class) pairs is the two weights times the two totals. -/
theorem numR_eq (P : PArr) (T : TArr) :
    numR P T = Ideal.div (negNumR T) (posNumR T + negNumR T) * tot (fSpos P T)
      + Ideal.div (posNumR T) (posNumR T + negNumR T) * tot (fSneg P T) := by
  unfold numR
  rw [sum_idx2]
  show ∑ a : Fin 4194304, ∑ c : Fin 19,
      (wPix T (flatT T (ix1 a)) * ind (maskB (flatT T (ix1 a)))) * bceR (flatP P (ix1 a) c) c (flatT T (ix1 a)) = _
  rw [← sum_idx1 (fun i : (⟨1, ![4194304]⟩ : Shape).Idx => ∑ c : Fin 19,
      (wPix T (flatT T i) * ind (maskB (flatT T i))) * bceR (flatP P i c) c (flatT T i))]
  rw [Finset.sum_congr rfl fun i _ => pixel_sum P T i, Finset.sum_add_distrib,
    ← mul_sum_nonneg Finset.univ _ _ (fun i _ => fSpos_nonneg P T (pN i) (pH i) (pW i)),
    ← mul_sum_nonneg Finset.univ _ _ (fun i _ => fSneg_nonneg P T (pN i) (pH i) (pW i)),
    sum_flat_tot (fSpos P T), sum_flat_tot (fSneg P T)]

/-- The two arrangements agree. -/
theorem resultR_eq_result (P : PArr) (T : TArr) : resultR P T = result P T := by
  unfold resultR result tail
  rw [numR_eq, posNumR_eq, negNumR_eq, maskSumR_eq]

end Cert.Spec

end
-- ==== Proof.Count.lean ====
/-
  Counting with integers. The reference counts the positive (and the negative) labels by an integer sum: a
  one-bit word per pixel, zero-extended to 32 bits, summed over the 4194304 pixels from the zero word, and the
  total converted to a float. Since at most 4194304 < 2^31 bits are set, the 32-bit sum never wraps and its signed
  value is the number of set bits: the real number `∑ i, ind (b i)`.

  The three side conditions of the operations (1 < 32, the shape [4194304] reduces along axis 0 to the rank-0
  shape, the rank-0 shape has an element) are hypotheses of `count_eq`: it applies to whichever proofs of them a
  goal carries.
-/
import proofs.«155759_j20598663151778_2_alg».proof.ReferenceIdeal
import proofs.«155759_j20598663151778_2_alg».proof.Proof.Spec
import Idealize.ShloMosaic.PureOps.Ideal.Laws
import Idealize.ShloMosaic.PureOps.Reduce

noncomputable section

namespace Cert.Count

open Idealize.ShloMosaic Idealize.ShloMosaic.ValueIdx
open scoped BigOperators

/-- A one-bit word is 0 or 1. -/
theorem toNat_le_one (c : BitVec 1) : c.toNat ≤ 1 := by
  have := c.isLt
  omega

/-- The zero-extension of a one-bit word to 32 bits has the same value. -/
theorem toNat_setWidth_bit (c : BitVec 1) : (c.setWidth 32).toNat = c.toNat := by
  rw [BitVec.toNat_setWidth]
  have := toNat_le_one c
  exact Nat.mod_eq_of_lt (by omega)

/-- Summing zero-extended bits from the zero word over a set of fewer than 2^32 positions never wraps: the word's
    value is the number of set bits, which is at most the size of the set. By induction on the set: adding one
    more bit to a total that is at most the size of the smaller set stays below 2^32, so the addition modulo 2^32
    is the addition of naturals. -/
theorem fold_toNat {ι : Type} [DecidableEq ι] (b : ι → BitVec 1) (S : Finset ι) :
    S.card < 2 ^ 32 →
      (S.fold IntOp.addi (0#32) (fun i => (b i).setWidth 32)).toNat = ∑ i ∈ S, (b i).toNat
        ∧ ∑ i ∈ S, (b i).toNat ≤ S.card := by
  induction S using Finset.induction_on with
  | empty => intro _; simp
  | insert a S ha ih =>
    intro hc
    rw [Finset.card_insert_of_notMem ha] at hc
    obtain ⟨h1, h2⟩ := ih (by omega)
    rw [Finset.fold_insert ha, Finset.sum_insert ha, Finset.card_insert_of_notMem ha]
    have hb := toNat_le_one (b a)
    refine ⟨?_, by omega⟩
    show ((b a).setWidth 32 + _).toNat = _
    rw [BitVec.toNat_add, toNat_setWidth_bit, h1]
    exact Nat.mod_eq_of_lt (by omega)

/-- The cast of a finite sum of naturals to the extended reals is the sum of the casts. -/
theorem coe_nat_sum {ι : Type} (S : Finset ι) (f : ι → ℕ) :
    (((∑ i ∈ S, f i : ℕ) : ℝ) : EReal) = ∑ i ∈ S, ((f i : ℝ) : EReal) := by
  classical
  induction S using Finset.induction_on with
  | empty => simp
  | insert a S ha ih => rw [Finset.sum_insert ha, Finset.sum_insert ha, Nat.cast_add, EReal.coe_add, ih]

/-- The integer count, converted to a float, is the real number of set bits. The reduce is the fold of word
    addition over all 4194304 positions (every position drops to the one index of the rank-0 result); by
    `fold_toNat` the total's unsigned value is the number of set bits, at most 4194304 < 2^31, so its signed value
    is the same number. -/
theorem count_eq (b : IVec Cert.ReferenceIdeal.S4194304 1) (h32 : 1 < 32)
    (hr : Cert.ReferenceIdeal.S4194304.ReducesTo [0] Cert.ReferenceIdeal.S_) (h0 : 0 < Cert.ReferenceIdeal.S_.numel) :
    (sitofp (F := Ideal) .f32 (Host.reduce IntOp.addi (extui 32 b h32) (constantI Cert.ReferenceIdeal.S_ 32 0#32)
        hr h0) : FVec Ideal Cert.ReferenceIdeal.S_ .f32) ix0
      = ∑ i : Cert.ReferenceIdeal.S4194304.Idx, Cert.Spec.ind (b i) := by
  classical
  -- the number of positions
  have hcard : (Finset.univ : Finset Cert.ReferenceIdeal.S4194304.Idx).card = 4194304 := by
    rw [Finset.card_univ, Shape.card_idx, Shape.numel_rank1]
    rfl
  -- every position drops to the one index of the rank-0 result
  have hfilter : (Finset.univ.filter fun i : Cert.ReferenceIdeal.S4194304.Idx => hr.drop i = ix0) = Finset.univ :=
    Finset.filter_true_of_mem fun i _ => funext fun a => a.elim0
  obtain ⟨h1, h2⟩ := fold_toNat b (Finset.univ : Finset Cert.ReferenceIdeal.S4194304.Idx) (by rw [hcard]; norm_num)
  rw [hcard] at h2
  show (((Host.reduce IntOp.addi (extui 32 b h32) (constantI Cert.ReferenceIdeal.S_ 32 0#32) hr h0 ix0).toInt : ℝ) : EReal) = _
  rw [Host.reduce_eq_fold, hfilter]
  show (((Finset.univ.fold IntOp.addi (0#32) (fun i => (b i).setWidth 32)).toInt : ℝ) : EReal) = _
  rw [BitVec.toInt_eq_toNat_of_lt (by rw [h1]; omega), h1]
  rw [Int.cast_natCast]
  exact coe_nat_sum _ _

end Cert.Count

end
-- ==== Proof.RefValue.lean ====
/-
  The reference program read back as mathematics. Every stage of the reference is read at ONE index and identified with
  the matching quantity of the specification: the flattened label, its three tests, the two integer counts, the pixel
  weight, the two clipped logarithms, the one-hot blend, the weighted class term, and last the two sums and their
  quotient, which is the specification's flat arrangement `resultR`.
-/
import proofs.«155759_j20598663151778_2_alg».proof.Proof.Gen.ReferenceIdeal.Read
import proofs.«155759_j20598663151778_2_alg».proof.Proof.Spec
import proofs.«155759_j20598663151778_2_alg».proof.Proof.Count
import Idealize.ShloMosaic.Lib.ValueIdx

noncomputable section

namespace Cert.RefValue

open Cert.ReferenceIdeal Cert.ReferenceIdeal.Read Idealize.ShloMosaic Idealize.ShloMosaic.ValueIdx Cert.Spec
open scoped BigOperators

/-- The two argument arrays at the ideal instance. -/
abbrev PIn : Type := (⟨S8x19x512x1024, .f32⟩ : BufTy).Contents (Elt Ideal)
abbrev TIn : Type := (⟨S8x512x1024, .i32⟩ : BufTy).Contents (Elt Ideal)

/-! ## Labels: the flattened label and its three tests -/

/-- Flattening the labels reads pixel number `i` at (i / 524288, i / 1024 mod 512, i mod 1024). -/
theorem idx_v0 (i : S4194304.Idx) : idx_main_v0 i = pixIdx i := by
  funext a; match a with | ⟨0, _⟩ => rfl | ⟨1, _⟩ => rfl | ⟨2, _⟩ => rfl

theorem v0_eq (x1 : TIn) (i : S4194304.Idx) : val_main_v0 (F := Ideal) x1 i = flatT x1 i := by
  rw [val_main_v0_apply, idx_v0]; rfl

/-- The positive bit. -/
theorem v2_eq (x1 : TIn) (i : S4194304.Idx) : val_main_v2 (F := Ideal) x1 i = posB (flatT x1 i) := by
  rw [val_main_v2_apply, v0_eq, val_main_v1_apply, val_main_c_apply]; rfl

/-- The negative bit. -/
theorem v4_eq (x1 : TIn) (i : S4194304.Idx) : val_main_v4 (F := Ideal) x1 i = negB (flatT x1 i) := by
  rw [val_main_v4_apply, v0_eq, val_main_v3_apply, val_main_c_0_apply]; rfl

/-- The kept bit. -/
theorem v20_eq (x1 : TIn) (i : S4194304.Idx) : val_main_v20 (F := Ideal) x1 i = maskB (flatT x1 i) := by
  rw [val_main_v20_apply, val_main_v17_apply, val_main_v19_apply, v0_eq, val_main_v16_apply, val_main_c_3_apply,
    val_main_v18_apply, val_main_c_4_apply]; rfl

/-- The kept bit as a number. -/
theorem v21_eq (x1 : TIn) (i : S4194304.Idx) : val_main_v21 (F := Ideal) x1 i = ind (maskB (flatT x1 i)) := by
  rw [val_main_v21_apply, v20_eq]; rfl

/-! ## The two counts and the pixel weight -/

/-- The number of positive labels. -/
theorem v7_eq (x1 : TIn) : val_main_v7 (F := Ideal) x1 ix0 = posNumR x1 := by
  unfold val_main_v7 val_main_v6 val_main_v5 val_main_c_1
  refine (Cert.Count.count_eq (val_main_v2 (F := Ideal) x1) _ _ _).trans ?_
  unfold posNumR
  exact Finset.sum_congr rfl (fun i _ => congrArg ind (v2_eq x1 i))

/-- The number of negative labels. -/
theorem v10_eq (x1 : TIn) : val_main_v10 (F := Ideal) x1 ix0 = negNumR x1 := by
  unfold val_main_v10 val_main_v9 val_main_v8 val_main_c_2
  refine (Cert.Count.count_eq (val_main_v4 (F := Ideal) x1) _ _ _).trans ?_
  unfold negNumR
  exact Finset.sum_congr rfl (fun i _ => congrArg ind (v4_eq x1 i))

/-- Their sum. -/
theorem v11_eq (x1 : TIn) : val_main_v11 (F := Ideal) x1 ix0 = posNumR x1 + negNumR x1 := by
  rw [val_main_v11_apply, v7_eq, v10_eq]; rfl

/-- The negatives' share. -/
theorem v12_eq (x1 : TIn) : val_main_v12 (F := Ideal) x1 ix0 = Ideal.div (negNumR x1) (posNumR x1 + negNumR x1) := by
  rw [val_main_v12_apply, v10_eq, v11_eq]; rfl

/-- The positives' share. -/
theorem v13_eq (x1 : TIn) : val_main_v13 (F := Ideal) x1 ix0 = Ideal.div (posNumR x1) (posNumR x1 + negNumR x1) := by
  rw [val_main_v13_apply, v7_eq, v11_eq]; rfl

/-- The weight of a negative pixel, zero elsewhere. -/
theorem v14_eq (x1 : TIn) (i : S4194304.Idx) :
    val_main_v14 (F := Ideal) x1 i
      = Scalar.select (negB (flatT x1 i)) (Ideal.div (posNumR x1) (posNumR x1 + negNumR x1)) zero := by
  rw [val_main_v14_apply, v4_eq, val_main_call0_v0_apply, val_main_call0_v1_apply, val_main_cst_apply]
  rw [show idx_main_call0_v0 i = ix0 from rfl, v13_eq]; rfl

/-- The pixel weight. -/
theorem v15_eq (x1 : TIn) (i : S4194304.Idx) : val_main_v15 (F := Ideal) x1 i = wPix x1 (flatT x1 i) := by
  rw [val_main_v15_apply, v2_eq, val_main_call1_v0_apply, v14_eq]
  rw [show idx_main_call1_v0 i = ix0 from rfl, v12_eq]; rfl

/-- The pixel weight times the kept bit. -/
theorem v37_eq (x1 : TIn) (i : S4194304.Idx) :
    val_main_v37 (F := Ideal) x1 i = wPix x1 (flatT x1 i) * ind (maskB (flatT x1 i)) := by
  rw [val_main_v37_apply, v15_eq, v21_eq]; rfl

/-! ## Probabilities: the two clipped logarithms -/

/-- The transposed and flattened probabilities read pixel `a`, class `c`. -/
theorem idx_v23 (a : Fin 4194304) (c : Fin 19) :
    idx_main_v22 (idx_main_v23 (ix2 a c))
      = ix4 (⟨a.val / 524288, by have h0 : a.val < 4194304 := a.isLt; omega⟩ : Fin 8) c
          (⟨a.val / 1024 % 512, Nat.mod_lt _ (by norm_num)⟩ : Fin 512)
          (⟨a.val % 1024, Nat.mod_lt _ (by norm_num)⟩ : Fin 1024) := by
  have ha : a.val < 4194304 := a.isLt
  have hc : c.val < 19 := c.isLt
  funext e
  match e with
  | ⟨0, _⟩ => exact Fin.ext (by show (a.val * 19 + c.val) / 9961472 = a.val / 524288; omega)
  | ⟨1, _⟩ => exact Fin.ext (by show (a.val * 19 + c.val) % 19 = c.val; omega)
  | ⟨2, _⟩ => exact Fin.ext (by show (a.val * 19 + c.val) / 19456 % 512 = a.val / 1024 % 512; omega)
  | ⟨3, _⟩ => exact Fin.ext (by show (a.val * 19 + c.val) / 19 % 1024 = a.val % 1024; omega)

theorem v23_eq (x0 : PIn) (a : Fin 4194304) (c : Fin 19) :
    val_main_v23 (F := Ideal) x0 (ix2 a c) = flatP x0 (ix1 a) c := by
  rw [val_main_v23_apply, val_main_v22_apply, idx_v23]; rfl

/-- log of the clipped probability. -/
theorem v25_eq (x0 : PIn) (a : Fin 4194304) (c : Fin 19) :
    val_main_v25 (F := Ideal) x0 (ix2 a c) = clipLog (flatP x0 (ix1 a) c) := by
  rw [val_main_v25_apply, val_main_v24_apply, val_main_call2_v4_apply, val_main_call2_v3_apply, val_main_cst_6_apply,
    val_main_call2_v2_apply, val_main_call2_v1_apply, val_main_call2_v0_apply, val_main_cst_5_apply, v23_eq]; rfl

/-- log of the clipped complement. -/
theorem v29_eq (x0 : PIn) (a : Fin 4194304) (c : Fin 19) :
    val_main_v29 (F := Ideal) x0 (ix2 a c) = clipLog (one - flatP x0 (ix1 a) c) := by
  rw [val_main_v29_apply, val_main_v28_apply, val_main_call3_v4_apply, val_main_call3_v3_apply, val_main_cst_9_apply,
    val_main_call3_v2_apply, val_main_call3_v1_apply, val_main_call3_v0_apply, val_main_cst_8_apply,
    val_main_v27_apply, val_main_v26_apply, val_main_cst_7_apply, v23_eq]; rfl

/-! ## The one-hot blend and the class term -/

theorem idx_call4 (a : Fin 4194304) (c : Fin 19) : idx_main_call4_v0 (idx_main_call4_v2 (ix2 a c)) = ix1 a := by
  funext e; match e with | ⟨0, _⟩ => rfl

/-- The one-hot bit of class `c` at pixel `a`, as a number. -/
theorem v30_eq (x1 : TIn) (a : Fin 4194304) (c : Fin 19) :
    val_main_v30 (F := Ideal) x1 (ix2 a c) = ind (IntOp.cmpi .eq (flatT x1 (ix1 a)) (BitVec.ofNat 32 c.val)) := by
  rw [val_main_v30_apply, val_main_call4_v4_apply, val_main_call4_v2_apply, val_main_call4_v0_apply, idx_call4, v0_eq,
    val_main_call4_v3_apply, val_main_call4_v1_apply]; rfl

/-- The class term. -/
theorem v36_eq (x0 : PIn) (x1 : TIn) (a : Fin 4194304) (c : Fin 19) :
    val_main_v36 (F := Ideal) x0 x1 (ix2 a c) = bceR (flatP x0 (ix1 a) c) c (flatT x1 (ix1 a)) := by
  rw [val_main_v36_apply, val_main_v35_apply, val_main_v31_apply, val_main_v34_apply, val_main_v33_apply,
    val_main_v32_apply, val_main_cst_10_apply, v30_eq, v25_eq, v29_eq]; rfl

theorem idx_v41 (a : Fin 4194304) (c : Fin 19) : idx_main_v38 (idx_main_v41 (ix2 a c)) = ix1 a := by
  funext e; match e with | ⟨0, _⟩ => rfl

/-- The weighted class term. -/
theorem v42_eq (x0 : PIn) (x1 : TIn) (a : Fin 4194304) (c : Fin 19) :
    val_main_v42 (F := Ideal) x0 x1 (ix2 a c)
      = (wPix x1 (flatT x1 (ix1 a)) * ind (maskB (flatT x1 (ix1 a)))) * bceR (flatP x0 (ix1 a) c) c (flatT x1 (ix1 a)) := by
  rw [val_main_v42_apply, val_main_v41_apply, val_main_v38_apply, idx_v41, v37_eq, v36_eq]; rfl

/-! ## The two sums and the quotient -/

/-- The numerator: the sum of the weighted class terms over every (pixel, class). -/
theorem v43_eq (x0 : PIn) (x1 : TIn) : val_main_v43 (F := Ideal) x0 x1 ix0 = numR x0 x1 := by
  rw [val_main_v43_apply, val_main_cst_13_apply, Ideal.ofBits_def, Ideal.ofBits_zero_f32, zero_add]
  unfold numR
  exact Finset.sum_congr rfl (fun j _ =>
    (congrArg (val_main_v42 (F := Ideal) x0 x1) (eq_ix2 j)).trans (v42_eq x0 x1 (j 0) (j 1)))

/-- The denominator: the number of kept pixels times the number of classes. -/
theorem v40_eq (x1 : TIn) : val_main_v40 (F := Ideal) x1 ix0 = maskSumR x1 * nClasses := by
  rw [val_main_v40_apply, val_main_v39_apply, val_main_cst_11_apply, val_main_cst_12_apply, Ideal.ofBits_def,
    Ideal.ofBits_zero_f32, zero_add]
  unfold maskSumR
  exact congrArg (· * nClasses) (Finset.sum_congr rfl (fun i _ => v21_eq x1 i))

/-- The reference's result is the specification's flat arrangement. -/
theorem ref_eq (x0 : (⟨Cert.ReferenceIdeal.S8x19x512x1024, .f32⟩ : BufTy).Contents (Elt Ideal))
    (x1 : (⟨Cert.ReferenceIdeal.S8x512x1024, .i32⟩ : BufTy).Contents (Elt Ideal)) :
    Cert.ReferenceIdeal.Read.val_main_v44 (F := Ideal) x0 x1 = fun _ => Cert.Spec.resultR x0 x1 := by
  funext i
  obtain rfl := eq_ix0 i
  rw [val_main_v44_apply, v43_eq, v40_eq]; rfl

end Cert.RefValue

end
-- ==== Proof.KTail.lean ====
/-
  The host operations that follow the kernel, read at the ideal instance.

  Each of the kernel's five result arrays has shape [8, 1, 128]. The program keeps the entries [n, 0, 0] of each
  (a slice [0:8, 0:1, 0:1], reshaped to [8]), sums them over n starting from the zero word, and combines the five
  sums by scalar operations into the loss. At the ideal instance a float is an extended real, the host's float sum
  is the exact sum and the host's quotient is the ideal division, so the chain read at its one index is the quotient
  `Cert.Spec.tail` of the five sums Σₙ A[n, 0, 0].
-/
import proofs.«155759_j20598663151778_2_alg».proof.KernelIdeal
import proofs.«155759_j20598663151778_2_alg».proof.Proof.Gen.KernelIdeal
import proofs.«155759_j20598663151778_2_alg».proof.Proof.Spec
import Idealize.ShloMosaic.Lib.ValueIdx
import Idealize.ShloMosaic.Lib.Pipeline.Value
import Idealize.ShloMosaic.PureOps.Ideal.Laws

noncomputable section

namespace Cert.KernelIdeal.Tail

open Cert.KernelIdeal Idealize.ShloMosaic Idealize.ShloMosaic.ValueIdx
open scoped BigOperators

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/- The shape relations the operations cite are fields of the program's class of side conditions; they are taken
   from an instance of it, spelt as the program spells them. -/
variable [Facts₀]
open Facts₀

/-- The sum over n of the entries [n, 0, 0] of a result array, as the program computes it: the slice
    [0:8, 0:1, 0:1], the reshape to [8], the host's sum over the one axis from the zero word. -/
def sumOut (A : Vec Ideal S8x1x128 .f32) : Vec Ideal S_ .f32 :=
  Host.reduceAdd (F := Ideal) (shapeCast S8 (extractStridedSlice S8x1x1 ![0, 0, 0] A slices_S8x1x128_S8x1x1_0_0_0) shapeCasts_S8x1x1_S8)
    (constant (F := Ideal) S_ .f32 0x00000000#32) reducesTo_S8_S_d0 h_S_

/-- At the ideal instance it is the exact sum Σₙ A[n, 0, 0]: the host's sum into the rank-0 shape is the initial
    value, here the zero word, which is 0, plus the sum over every index of the [8] operand; entry n of the reshaped
    slice is entry (n, 0, 0) of the slice (both at row-major position n), which is entry (n, 0, 0) of the array (the
    slice's offsets are 0). -/
theorem sumOut_apply (A : Vec Ideal S8x1x128 .f32) :
    sumOut A ix0 = ∑ n : Fin 8, A (ix3 n (0 : Fin 1) (0 : Fin 128)) := by
  unfold sumOut
  simp only [Host.reduceAdd, Ideal.hostReduceAdd_def]
  refine (Ideal.hostReduceAdd_total reducesTo_S8_S_d0 (fun b => b.elim0) _ _ ix0).trans ?_
  rw [constant_apply, Ideal.ofBits_zero_f32, zero_add, sum_idx1]
  refine Finset.sum_congr rfl fun n _ => ?_
  refine (shapeCast_apply _ shapeCasts_S8x1x1_S8 (ix1 n) (ix3 n (0 : Fin 1) (0 : Fin 1)) ?_).trans ?_
  · rw [Shape.rowMajor_val_three, Shape.rowMajor_val_one]
    show (n.val * 1 + 0) * 1 + 0 = n.val
    omega
  · exact extractStridedSlice_apply _ A slices_S8x1x128_S8x1x1_0_0_0 _ (ix3 n (0 : Fin 1) (0 : Fin 128))
      (fun a => match a with | ⟨0, _⟩ => (Nat.zero_add _).symm | ⟨1, _⟩ => rfl | ⟨2, _⟩ => rfl)

/-- The scalar operations after the five sums, in the program's order: with s2 … s6 the sums of the five result
    arrays,  ( (s5 / (s4 + s5)) · s2 + (s4 / (s4 + s5)) · s3 ) / ( s6 · 19 ). -/
def hostTail (A2 A3 A4 A5 A6 : Vec Ideal S8x1x128 .f32) : Vec Ideal S_ .f32 :=
  Host.divf (F := Ideal)
    (addf (mulf (Host.divf (F := Ideal) (sumOut A5) (addf (sumOut A4) (sumOut A5))) (sumOut A2))
          (mulf (Host.divf (F := Ideal) (sumOut A4) (addf (sumOut A4) (sumOut A5))) (sumOut A3)))
    (mulf (sumOut A6) (constant (F := Ideal) S_ .f32 0x41980000#32))

/-- At the ideal instance every one of these operations acts on the one element, the quotient as the ideal
    division and the constant as the extended real of its word, so the chain is `Cert.Spec.tail` of the five sums. -/
theorem hostTail_apply (A2 A3 A4 A5 A6 : Vec Ideal S8x1x128 .f32) :
    hostTail A2 A3 A4 A5 A6 ix0
      = Cert.Spec.tail (∑ n : Fin 8, A2 (ix3 n (0 : Fin 1) (0 : Fin 128))) (∑ n : Fin 8, A3 (ix3 n (0 : Fin 1) (0 : Fin 128)))
          (∑ n : Fin 8, A4 (ix3 n (0 : Fin 1) (0 : Fin 128))) (∑ n : Fin 8, A5 (ix3 n (0 : Fin 1) (0 : Fin 128)))
          (∑ n : Fin 8, A6 (ix3 n (0 : Fin 1) (0 : Fin 128))) := by
  rw [← sumOut_apply A2, ← sumOut_apply A3, ← sumOut_apply A4, ← sumOut_apply A5, ← sumOut_apply A6]
  rfl

end Cert.KernelIdeal.Tail

end
-- ==== Proof.KTotals.lean ====
/-
  An image's total of a per-pixel quantity, in the order the kernel adds it up, and the result array it fills.

  For image n the kernel adds, at each of the 256·1024 accumulator positions (r, w), the first half's
  contribution to zero and then the second half's: (0 + f(n, r, w)) + f(n, 256 + r, w); the total over the
  positions fills every lane of block n of a [8, 1, 128] array. Summed over the eight images these totals are the
  total of f over all pixels.
-/
import proofs.«155759_j20598663151778_2_alg».proof.KernelIdeal
import proofs.«155759_j20598663151778_2_alg».proof.Proof.Spec
import proofs.«155759_j20598663151778_2_alg».proof.Proof.Math
import Idealize.ShloMosaic.Lib.ValueIdx

noncomputable section

open Idealize.ShloMosaic Idealize.ShloMosaic.ValueIdx
open scoped BigOperators

namespace Cert.KernelIdeal.KTotals

open Cert.KernelIdeal

/-- Image n's total of a per-pixel quantity f, in the order the kernel adds it up. -/
def Gn (f : Fin 8 → Fin 512 → Fin 1024 → EReal) (n : Fin 8) : EReal :=
  ∑ y : S256x1024.Idx, ((Cert.Spec.zero + f n (Cert.Spec.lo (y 0)) (y 1)) + f n (Cert.Spec.hi (y 0)) (y 1))

/-- A result array: every lane of block n holds image n's total. -/
def G (f : Fin 8 → Fin 512 → Fin 1024 → EReal) : S8x1x128.Idx → EReal := fun i => Gn f (i 0)

/-- The eight images' totals add up to the total over all pixels. -/
theorem sum_G (f : Fin 8 → Fin 512 → Fin 1024 → EReal) :
    ∑ n : Fin 8, G f (ix3 n (0 : Fin 1) (0 : Fin 128)) = Cert.Spec.tot f := by
  rw [Cert.Spec.tot_eq_halves]
  refine Finset.sum_congr rfl fun n _ => ?_
  show Gn f n = _
  unfold Gn
  rw [sum_idx2]
  refine Finset.sum_congr rfl fun r _ => Finset.sum_congr rfl fun w _ => ?_
  rw [Cert.Spec.zero_eq, zero_add]

end Cert.KernelIdeal.KTotals

end
-- ==== Proof.KPay.lean ====
/-
  The kernel body's arithmetic read at an index.

  Every pure value the kernel's body computes (its "payloads") is a short chain of vector
  operations. Read at the ideal values, where a float is an extended real and every operation is
  exact, each payload at an index is a term of the specification: the per-pixel sum of class
  terms, the three label tests, the accumulators' updates, the zero splats, and the final totals.
-/
import proofs.«155759_j20598663151778_2_alg».proof.Proof.Gen.KernelIdeal.Skeleton
import proofs.«155759_j20598663151778_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Pay

open Cert.KernelIdeal Cert.KernelIdeal.Gen Idealize.ShloMosaic Idealize.ShloMosaic.ValueIdx
open scoped BigOperators

/-! ## Words -/

/-- A one-bit word widened to 32 bits and converted as a signed integer is the number 0 or 1. -/
theorem ind_sitofp (b : BitVec 1) :
    (FloatOps.sitofp (F := Ideal) .f32 (b.setWidth 32) : EReal) = Cert.Spec.ind b := by
  rcases BitVec.eq_zero_or_eq_one b with h | h <;> subst h <;>
    simp [Cert.Spec.ind, FloatOps.sitofp]

/-! ## The accumulators' updates -/

theorem pay18_apply (v32 : FVec Ideal S256x1024 .f32) (v33 : Vec Ideal S256x1024 .f32) (v35 : FVec Ideal S256x1024 .f32)
    (y : S256x1024.Idx) : k0_pay18 (F := Ideal) v32 v33 v35 y = v33 y + v35 y * v32 y := by
  unfold k0_pay18
  rw [shapeCast_self]
  rfl

theorem pay19_apply (v21 : FVec Ideal S256x1024 .f32) (v25 : IVec S256x1024 1) (v32 : FVec Ideal S256x1024 .f32)
    (v41 : Vec Ideal S256x1024 .f32) (y : S256x1024.Idx) :
    k0_pay19 (F := Ideal) v21 v25 v32 v41 y = v41 y + Scalar.select (v25 y) (v21 y) Cert.Spec.zero * v32 y := by
  unfold k0_pay19
  rw [shapeCast_self]
  rfl

theorem pay20_apply (v23 : IVec S256x1024 1) (v49 : Vec Ideal S256x1024 .f32) (y : S256x1024.Idx) :
    k0_pay20 (F := Ideal) v23 v49 y = v49 y + Cert.Spec.ind (v23 y) := by
  unfold k0_pay20
  rw [shapeCast_self]
  exact congrArg (v49 y + ·) (ind_sitofp (v23 y))

theorem pay21_apply (v25 : IVec S256x1024 1) (v56 : Vec Ideal S256x1024 .f32) (y : S256x1024.Idx) :
    k0_pay21 (F := Ideal) v25 v56 y = v56 y + Cert.Spec.ind (v25 y) := by
  unfold k0_pay21
  rw [shapeCast_self]
  exact congrArg (v56 y + ·) (ind_sitofp (v25 y))

theorem pay22_apply (v32 : FVec Ideal S256x1024 .f32) (v63 : Vec Ideal S256x1024 .f32) (y : S256x1024.Idx) :
    k0_pay22 (F := Ideal) v32 v63 y = v63 y + v32 y := by
  unfold k0_pay22
  rw [shapeCast_self]
  rfl

/-! ## The zero splats -/

theorem pay7_apply (y : S256x1024.Idx) : k0_pay7 (F := Ideal) y = Cert.Spec.zero := by
  unfold k0_pay7
  rw [shapeCast_self]
  rfl
theorem pay8_apply (y : S256x1024.Idx) : k0_pay8 (F := Ideal) y = Cert.Spec.zero := by
  unfold k0_pay8
  rw [shapeCast_self]
  rfl
theorem pay9_apply (y : S256x1024.Idx) : k0_pay9 (F := Ideal) y = Cert.Spec.zero := by
  unfold k0_pay9
  rw [shapeCast_self]
  rfl
theorem pay10_apply (y : S256x1024.Idx) : k0_pay10 (F := Ideal) y = Cert.Spec.zero := by
  unfold k0_pay10
  rw [shapeCast_self]
  rfl
theorem pay11_apply (y : S256x1024.Idx) : k0_pay11 (F := Ideal) y = Cert.Spec.zero := by
  unfold k0_pay11
  rw [shapeCast_self]
  rfl

/-! ## The label block and its three tests -/

/-- The label block with its leading unit axis dropped reads the block at (0, r, w). -/
theorem pay12_apply (x1 : Vec Ideal S1x256x1024 .i32) (r : Fin 256) (w : Fin 1024) :
    k0_pay12 (F := Ideal) x1 (ix2 r w) = x1 (ix3 (0 : Fin 1) r w) :=
  shapeCast_1ab_ab_apply x1 shapeCasts_S1x256x1024_S256x1024 r w

theorem pay14_apply (x1 : Vec Ideal S1x256x1024 .i32) (r : Fin 256) (w : Fin 1024) :
    k0_pay14 (F := Ideal) x1 (ix2 r w) = Cert.Spec.posB (x1 (ix3 (0 : Fin 1) r w)) := by
  unfold k0_pay14
  exact congrArg Cert.Spec.posB (pay12_apply x1 r w)

theorem pay15_apply (x1 : Vec Ideal S1x256x1024 .i32) (r : Fin 256) (w : Fin 1024) :
    k0_pay15 (F := Ideal) x1 (ix2 r w) = Cert.Spec.negB (x1 (ix3 (0 : Fin 1) r w)) := by
  unfold k0_pay15
  exact congrArg Cert.Spec.negB (pay12_apply x1 r w)

theorem pay16_apply (x1 : Vec Ideal S1x256x1024 .i32) (r : Fin 256) (w : Fin 1024) :
    k0_pay16 (F := Ideal) x1 (ix2 r w) = Cert.Spec.ind (Cert.Spec.maskB (x1 (ix3 (0 : Fin 1) r w))) := by
  unfold k0_pay16
  refine (ind_sitofp _).trans ?_
  exact congrArg (fun t => Cert.Spec.ind (Cert.Spec.maskB t)) (pay12_apply x1 r w)

/-! ## The per-pixel sum of the class terms -/

/-- The label block, one row of classes, broadcast over the 19 classes reads the label at (0, r, w). -/
theorem bcast_labels_apply (v : IVec S1x256x1024 32) (c : Fin 19) (r : Fin 256) (w : Fin 1024) :
    broadcastTo S19x256x1024 v broadcasts_S1x256x1024_S19x256x1024 (ix3 c r w) = v (ix3 (0 : Fin 1) r w) := by
  refine broadcastTo_apply v broadcasts_S1x256x1024_S19x256x1024 (ix3 c r w) (ix3 (0 : Fin 1) r w) fun a => ?_
  match a with
  | ⟨0, _⟩ => rfl
  | ⟨1, _⟩ => rfl
  | ⟨2, _⟩ => rfl

/-- The index a reduction over the class axis inserts the class coordinate into. -/
theorem lift_class (r : Fin 256) (w : Fin 1024) (c : Fin 19) :
    reduces_S19x256x1024_S256x1024.lift (ix2 r w) c = ix3 c r w := by
  funext a
  match a with
  | ⟨0, _⟩ => exact Fin.ext rfl
  | ⟨1, _⟩ => exact Fin.ext rfl
  | ⟨2, _⟩ => exact Fin.ext rfl

theorem pay13_apply (x0 : Vec Ideal S1x19x256x1024 .f32) (x1 : Vec Ideal S1x256x1024 .i32) (r : Fin 256) (w : Fin 1024) :
    k0_pay13 (F := Ideal) x0 x1 (ix2 r w)
      = ∑ c : Fin 19, Cert.Spec.bceK (x0 (ix4 (0 : Fin 1) c r w)) c (x1 (ix3 (0 : Fin 1) r w)) := by
  unfold k0_pay13 k0_pay12
  refine (Ideal.multiReduction_add_single _ _ reduces_S19x256x1024_S256x1024 (.inl rfl) rfl (ix2 r w)).trans ?_
  refine Finset.sum_congr rfl fun c _ => ?_
  rw [lift_class r w c]
  have e1 : iota .tc S19x256x1024 32 [0] iota_S19x256x1024_d0_w32 (ix3 c r w) = BitVec.ofNat 32 c.val :=
    iota_single_apply .tc S19x256x1024 32 0 iota_S19x256x1024_d0_w32 (ix3 c r w)
  have e2 : broadcastTo S19x256x1024
      (shapeCast S1x256x1024 (shapeCast S256x1024 x1 shapeCasts_S1x256x1024_S256x1024) shapeCasts_S256x1024_S1x256x1024)
      broadcasts_S1x256x1024_S19x256x1024 (ix3 c r w) = x1 (ix3 (0 : Fin 1) r w) := by
    rw [shapeCast_shapeCast]
    exact bcast_labels_apply x1 c r w
  have e3 : shapeCast S19x256x1024 x0 shapeCasts_S1x19x256x1024_S19x256x1024 (ix3 c r w) = x0 (ix4 (0 : Fin 1) c r w) :=
    shapeCast_1abc_abc_apply x0 shapeCasts_S1x19x256x1024_S19x256x1024 c r w
  show Cert.Spec.zero - Ideal.log (min Cert.Spec.one (max Cert.Spec.eps
      (Scalar.select (IntOp.cmpi .eq (iota .tc S19x256x1024 32 [0] iota_S19x256x1024_d0_w32 (ix3 c r w))
          (broadcastTo S19x256x1024
            (shapeCast S1x256x1024 (shapeCast S256x1024 x1 shapeCasts_S1x256x1024_S256x1024) shapeCasts_S256x1024_S1x256x1024)
            broadcasts_S1x256x1024_S19x256x1024 (ix3 c r w)))
        (shapeCast S19x256x1024 x0 shapeCasts_S1x19x256x1024_S19x256x1024 (ix3 c r w))
        (Cert.Spec.one - shapeCast S19x256x1024 x0 shapeCasts_S1x19x256x1024_S19x256x1024 (ix3 c r w))))) = _
  rw [e1, e2, e3]
  rfl

theorem pay17_apply (x0 : Vec Ideal S1x19x256x1024 .f32) (x1 : Vec Ideal S1x256x1024 .i32) (r : Fin 256) (w : Fin 1024) :
    k0_pay17 (F := Ideal) x0 x1 (ix2 r w)
      = Scalar.select (Cert.Spec.posB (x1 (ix3 (0 : Fin 1) r w)))
          (∑ c : Fin 19, Cert.Spec.bceK (x0 (ix4 (0 : Fin 1) c r w)) c (x1 (ix3 (0 : Fin 1) r w))) Cert.Spec.zero := by
  unfold k0_pay17
  show Scalar.select (k0_pay14 (F := Ideal) x1 (ix2 r w)) (k0_pay13 (F := Ideal) x0 x1 (ix2 r w)) Cert.Spec.zero = _
  rw [pay14_apply, pay13_apply]

/-! ## The final totals -/

/-- A block summed over both its axes, the total then splat over a lane row: at every lane, the sum of the block
    over all its indices. -/
theorem total_apply (v : Vec Ideal S256x1024 .f32) (j : S1x1x128.Idx) :
    (broadcast S1x1x128 (extractAt ![0, 0, 0]
      (shapeCast S1x1x1
        (multiReduction (F := Ideal) (φ := .f32) .add [1, 2] S1
          (shapeCast S1x256x1024 v shapeCasts_S256x1024_S1x256x1024) 0x00000000#32
          reduces_S1x256x1024_S1 (.inl rfl) rfl)
        shapeCasts_S1_S1x1x1) inpos_S1x1x1_p0_0_0) j : EReal) = ∑ y : S256x1024.Idx, v y := by
  show multiReduction (F := Ideal) (φ := .f32) .add [1, 2] S1
      (shapeCast S1x256x1024 v shapeCasts_S256x1024_S1x256x1024) 0x00000000#32
      reduces_S1x256x1024_S1 (.inl rfl) rfl (Shape.reshapeEquiv shapeCasts_S1_S1x1x1 _) = _
  refine (Ideal.multiReduction_add_total _ _ reduces_S1x256x1024_S1 (fun b => ?_) (.inl rfl) rfl _).trans ?_
  · match b with
    | ⟨0, _⟩ => rfl
  · exact Equiv.sum_comp (Shape.reshapeEquiv shapeCasts_S256x1024_S1x256x1024) v

theorem pay2_apply (v : Vec Ideal S256x1024 .f32) (j : S1x1x128.Idx) :
    k0_pay2 (F := Ideal) v j = ∑ y : S256x1024.Idx, v y := total_apply v j
theorem pay3_apply (v : Vec Ideal S256x1024 .f32) (j : S1x1x128.Idx) :
    k0_pay3 (F := Ideal) v j = ∑ y : S256x1024.Idx, v y := total_apply v j
theorem pay4_apply (v : Vec Ideal S256x1024 .f32) (j : S1x1x128.Idx) :
    k0_pay4 (F := Ideal) v j = ∑ y : S256x1024.Idx, v y := total_apply v j
theorem pay5_apply (v : Vec Ideal S256x1024 .f32) (j : S1x1x128.Idx) :
    k0_pay5 (F := Ideal) v j = ∑ y : S256x1024.Idx, v y := total_apply v j
theorem pay1_pay6_apply (v : Vec Ideal S256x1024 .f32) (j : S1x1x128.Idx) :
    k0_pay1 (F := Ideal) (k0_pay6 v) j = ∑ y : S256x1024.Idx, v y := total_apply v j

end Cert.KernelIdeal.Pay

end
-- ==== Proof.KBlocks.lean ====
/-
  Reading the kernel's input blocks, and one grid point's contributions in the specification's words.

  Grid point t works on image n = t / 2 and on rows (t mod 2)·256 … (t mod 2)·256 + 255: entry (0, c, r, w) of its
  probability block is entry (n, c, (t mod 2)·256 + r, w) of the probability array, and entry (0, r, w) of its
  label block is entry (n, (t mod 2)·256 + r, w) of the label array. With the blocks read so, what the body adds
  to each of its five accumulators at position (r, w) is the specification's per-pixel quantity at that pixel.
-/
import proofs.«155759_j20598663151778_2_alg».proof.Proof.Gen.KernelIdeal.Frame.Runs
import proofs.«155759_j20598663151778_2_alg».proof.Proof.Spec
import proofs.«155759_j20598663151778_2_alg».proof.Proof.KPay
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open scoped BigOperators

namespace Cert.KernelIdeal.KBlocks

open Cert.KernelIdeal Cert.KernelIdeal.Gen

variable (m : (ℓ : Loc nD τ sig) → Buf (Elt Ideal) ℓ)

/-- The printed index maps over the grid: point t is (t / 2, t mod 2); the result blocks move with t / 2 only. -/
theorem idx_in : ∀ t : Fin cfg0.N,
    win0_0.index t (0 : Fin 4) = t.val / 2 ∧ win0_0.index t (1 : Fin 4) = 0 ∧ win0_0.index t (2 : Fin 4) = t.val % 2 ∧ win0_0.index t (3 : Fin 4) = 0
    ∧ win0_1.index t (0 : Fin 3) = t.val / 2 ∧ win0_1.index t (1 : Fin 3) = t.val % 2 ∧ win0_1.index t (2 : Fin 3) = 0 :=
  (by decide +kernel : ∀ t : Fin grid0.N, _)

theorem idx_out : ∀ t : Fin cfg0.N,
    (win0_2.index t (0 : Fin 3) = t.val / 2 ∧ win0_2.index t (1 : Fin 3) = 0 ∧ win0_2.index t (2 : Fin 3) = 0)
    ∧ (win0_3.index t (0 : Fin 3) = t.val / 2 ∧ win0_3.index t (1 : Fin 3) = 0 ∧ win0_3.index t (2 : Fin 3) = 0)
    ∧ (win0_4.index t (0 : Fin 3) = t.val / 2 ∧ win0_4.index t (1 : Fin 3) = 0 ∧ win0_4.index t (2 : Fin 3) = 0)
    ∧ (win0_5.index t (0 : Fin 3) = t.val / 2 ∧ win0_5.index t (1 : Fin 3) = 0 ∧ win0_5.index t (2 : Fin 3) = 0)
    ∧ (win0_6.index t (0 : Fin 3) = t.val / 2 ∧ win0_6.index t (1 : Fin 3) = 0 ∧ win0_6.index t (2 : Fin 3) = 0) :=
  (by decide +kernel : ∀ t : Fin grid0.N, _)

/-- The probability block of point t, read at (0, cl, r, w). -/
theorem blockP (c : Dev nD) (t : Fin cfg0.N) (cl : Fin 19) (r : Fin 256) (w : Fin 1024)
    (n : Fin 8) (h : Fin 512) (hn : n.val = t.val / 2) (hh : h.val = t.val % 2 * 256 + r.val) :
    iblk m c 0 t (ix4 (0 : Fin 1) cl r w) = V m c main_arg0 (ix4 n cl h w) := by
  show V m c main_arg0 (((cfg0.win 0).blk t).view.emb (ix4 (0 : Fin 1) cl r w)) = _
  refine congrArg _ ?_
  funext a; apply Fin.ext
  obtain ⟨e0, e1, e2, e3, -⟩ := idx_in t
  match a with
  | ⟨0, _⟩ => show win0_0.index t (0 : Fin 4) * 1 + 1 * 0 = n.val; omega
  | ⟨1, _⟩ => show win0_0.index t (1 : Fin 4) * 19 + 1 * cl.val = cl.val; omega
  | ⟨2, _⟩ => show win0_0.index t (2 : Fin 4) * 256 + 1 * r.val = h.val; omega
  | ⟨3, _⟩ => show win0_0.index t (3 : Fin 4) * 1024 + 1 * w.val = w.val; omega

/-- The label block of point t, read at (0, r, w). -/
theorem blockT (c : Dev nD) (t : Fin cfg0.N) (r : Fin 256) (w : Fin 1024)
    (n : Fin 8) (h : Fin 512) (hn : n.val = t.val / 2) (hh : h.val = t.val % 2 * 256 + r.val) :
    iblk m c 1 t (ix3 (0 : Fin 1) r w) = V m c main_arg1 (ix3 n h w) := by
  show V m c main_arg1 (((cfg0.win 1).blk t).view.emb (ix3 (0 : Fin 1) r w)) = _
  refine congrArg _ ?_
  funext a; apply Fin.ext
  obtain ⟨-, -, -, -, e0, e1, e2⟩ := idx_in t
  match a with
  | ⟨0, _⟩ => show win0_1.index t (0 : Fin 3) * 1 + 1 * 0 = n.val; omega
  | ⟨1, _⟩ => show win0_1.index t (1 : Fin 3) * 256 + 1 * r.val = h.val; omega
  | ⟨2, _⟩ => show win0_1.index t (2 : Fin 3) * 1024 + 1 * w.val = w.val; omega

/-! ## One point's contributions

  Stated over blocks `x0`, `x1` that read arrays `P`, `T` at pixel (n, h, w) where the block is read at (r, w). -/

section Contrib

variable (x0 : Vec Ideal S1x19x256x1024 .f32) (x1 : Vec Ideal S1x256x1024 .i32) (P : Cert.Spec.PArr) (T : Cert.Spec.TArr)
  (r : Fin 256) (w : Fin 1024) (n : Fin 8) (h : Fin 512)

theorem contrib_spos (hP : ∀ cl : Fin 19, x0 (ix4 (0 : Fin 1) cl r w) = P (ix4 n cl h w)) (hT : x1 (ix3 (0 : Fin 1) r w) = T (ix3 n h w)) :
    k0_pay17 (F := Ideal) x0 x1 (ix2 r w) * k0_pay16 (F := Ideal) x1 (ix2 r w) = Cert.Spec.fSpos P T n h w := by
  rw [Pay.pay17_apply, Pay.pay16_apply, hT]
  simp only [hP]
  rfl

theorem contrib_sneg (hP : ∀ cl : Fin 19, x0 (ix4 (0 : Fin 1) cl r w) = P (ix4 n cl h w)) (hT : x1 (ix3 (0 : Fin 1) r w) = T (ix3 n h w)) :
    Scalar.select (k0_pay15 (F := Ideal) x1 (ix2 r w)) (k0_pay13 (F := Ideal) x0 x1 (ix2 r w)) Cert.Spec.zero * k0_pay16 (F := Ideal) x1 (ix2 r w)
      = Cert.Spec.fSneg P T n h w := by
  rw [Pay.pay15_apply, Pay.pay13_apply, Pay.pay16_apply, hT]
  simp only [hP]
  rfl

theorem contrib_pnum (hT : x1 (ix3 (0 : Fin 1) r w) = T (ix3 n h w)) :
    Cert.Spec.ind (k0_pay14 (F := Ideal) x1 (ix2 r w)) = Cert.Spec.fPnum T n h w := by
  rw [Pay.pay14_apply, hT]; rfl

theorem contrib_nnum (hT : x1 (ix3 (0 : Fin 1) r w) = T (ix3 n h w)) :
    Cert.Spec.ind (k0_pay15 (F := Ideal) x1 (ix2 r w)) = Cert.Spec.fNnum T n h w := by
  rw [Pay.pay15_apply, hT]; rfl

theorem contrib_mask (hT : x1 (ix3 (0 : Fin 1) r w) = T (ix3 n h w)) :
    k0_pay16 (F := Ideal) x1 (ix2 r w) = Cert.Spec.fMask T n h w := by
  rw [Pay.pay16_apply, hT]; rfl

end Contrib

end Cert.KernelIdeal.KBlocks

end
-- ==== Proof.KPieces.lean ====
/-
  What the kernel body leaves behind, as payloads.

  The body runs at a grid point (i, j) of an 8 × 2 grid. It holds five [256, 1024] accumulators. At j = 0 it first
  stores zeros in each; at every point it adds the point's contribution (a function of the probability block x0 and
  the label block x1) to each accumulator; at j = 1 it also writes each accumulator's total, broadcast over 128 lanes,
  to an output block. The frame definitions state what each buffer ends holding as "the list of stored pieces, read
  back"; here each such list is read: every store covers its whole buffer, so the last store's payload is the
  contents, and a load that follows a covering store reads that store's payload.
-/
import proofs.«155759_j20598663151778_2_alg».proof.Proof.FrameDefsP
import Idealize.ShloMosaic.Lib.Pipeline.Value
import Idealize.ShloMosaic.Lib.Tactic

set_option maxRecDepth 16384

noncomputable section

namespace Cert.KernelIdeal.Pieces

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.GenP

variable {F : FTy → Type} [FloatOps F]

/-- The zero offsets of a whole-buffer rectangle, in ranks 2, 3 and 4. -/
theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

variable (c : Dev nD) (i : grid0.Coords) (arg2 : Memref sig .tc .vmem S1x19x256x1024 .f32) (harg2 : arg2.IsWhole) (arg3 : Memref sig .tc .vmem S1x256x1024 .i32) (harg3 : arg3.IsWhole) (arg4 : Memref sig .tc .vmem S1x1x128 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S256x1024 .f32) (harg9 : arg9.IsWhole) (arg10 : Memref sig .tc .vmem S256x1024 .f32) (harg10 : arg10.IsWhole) (arg11 : Memref sig .tc .vmem S256x1024 .f32) (harg11 : arg11.IsWhole) (arg12 : Memref sig .tc .vmem S256x1024 .f32) (harg12 : arg12.IsWhole) (arg13 : Memref sig .tc .vmem S256x1024 .f32) (harg13 : arg13.IsWhole)

/-! ## Case B (grid points with j = 1): each scratch is loaded whole, the point's contribution added, and stored whole -/

section caseB
variable (hc0 : ¬cond0_0 i) (hc1 : cond0_1 i)
    (x0 : Vec F S1x19x256x1024 .f32) (x1 : Vec F S1x256x1024 .i32) (xs0 : Vec F S256x1024 .f32) (xs1 : Vec F S256x1024 .f32) (xs2 : Vec F S256x1024 .f32) (xs3 : Vec F S256x1024 .f32) (xs4 : Vec F S256x1024 .f32)

theorem sout_B_0 : sout0_B_0 c i arg2 harg2 arg3 harg3 arg4 harg4 arg5 harg5 arg6 harg6 arg7 harg7 arg8 harg8 arg9 harg9 arg10 harg10 arg11 harg11 arg12 harg12 arg13 harg13 hc0 hc1 x0 x1 xs0 xs1 xs2 xs3 xs4 = k0_pay18 (k0_pay16 x1) xs0 (k0_pay17 x0 x1) := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 hc0 hc1 x0 x1 xs0 xs1 xs2 xs3 xs4)]
  unfold kernelRun0_B
  dsimp only
  sl_unfold_words
  rw [View.canon_unit_zero hz2]
  simp only [View.readAt_eq_ld, harg2.read_unread, harg3.read_unread, harg9.read_unread, harg10.read_unread, harg11.read_unread, harg12.read_unread, harg13.read_unread, View.ld_unit_zero (S := S256x1024) hz2, View.ld_unit_zero (S := S1x256x1024) hz3, View.ld_unit_zero (S := S1x19x256x1024) hz4]

theorem sout_B_1 : sout0_B_1 c i arg2 harg2 arg3 harg3 arg4 harg4 arg5 harg5 arg6 harg6 arg7 harg7 arg8 harg8 arg9 harg9 arg10 harg10 arg11 harg11 arg12 harg12 arg13 harg13 hc0 hc1 x0 x1 xs0 xs1 xs2 xs3 xs4 = k0_pay19 (k0_pay13 x0 x1) (k0_pay15 x1) (k0_pay16 x1) xs1 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 arg12 harg12 arg13 harg13 hc0 hc1 x0 x1 xs0 xs1 xs2 xs3 xs4)]
  unfold kernelRun0_B
  dsimp only
  sl_unfold_words
  rw [View.canon_unit_zero hz2]
  simp only [View.readAt_eq_ld, harg2.read_unread, harg3.read_unread, harg9.read_unread, harg10.read_unread, harg11.read_unread, harg12.read_unread, harg13.read_unread, View.ld_unit_zero (S := S256x1024) hz2, View.ld_unit_zero (S := S1x256x1024) hz3, View.ld_unit_zero (S := S1x19x256x1024) hz4]

theorem sout_B_2 : sout0_B_2 c i arg2 harg2 arg3 harg3 arg4 harg4 arg5 harg5 arg6 harg6 arg7 harg7 arg8 harg8 arg9 harg9 arg10 harg10 arg11 harg11 arg12 harg12 arg13 harg13 hc0 hc1 x0 x1 xs0 xs1 xs2 xs3 xs4 = k0_pay20 (k0_pay14 x1) xs2 := by
  unfold sout0_B_2
  rw [View.read_writes_eq_canon _ _ _ (scover0_B_2 c i arg2 harg2 arg3 harg3 arg4 harg4 arg5 harg5 arg6 harg6 arg7 harg7 arg8 harg8 arg9 harg9 arg10 harg10 arg11 harg11 arg12 harg12 arg13 harg13 hc0 hc1 x0 x1 xs0 xs1 xs2 xs3 xs4)]
  unfold kernelRun0_B
  dsimp only
  sl_unfold_words
  rw [View.canon_unit_zero hz2]
  simp only [View.readAt_eq_ld, harg2.read_unread, harg3.read_unread, harg9.read_unread, harg10.read_unread, harg11.read_unread, harg12.read_unread, harg13.read_unread, View.ld_unit_zero (S := S256x1024) hz2, View.ld_unit_zero (S := S1x256x1024) hz3, View.ld_unit_zero (S := S1x19x256x1024) hz4]

theorem sout_B_3 : sout0_B_3 c i arg2 harg2 arg3 harg3 arg4 harg4 arg5 harg5 arg6 harg6 arg7 harg7 arg8 harg8 arg9 harg9 arg10 harg10 arg11 harg11 arg12 harg12 arg13 harg13 hc0 hc1 x0 x1 xs0 xs1 xs2 xs3 xs4 = k0_pay21 (k0_pay15 x1) xs3 := by
  unfold sout0_B_3
  rw [View.read_writes_eq_canon _ _ _ (scover0_B_3 c i arg2 harg2 arg3 harg3 arg4 harg4 arg5 harg5 arg6 harg6 arg7 harg7 arg8 harg8 arg9 harg9 arg10 harg10 arg11 harg11 arg12 harg12 arg13 harg13 hc0 hc1 x0 x1 xs0 xs1 xs2 xs3 xs4)]
  unfold kernelRun0_B
  dsimp only
  sl_unfold_words
  rw [View.canon_unit_zero hz2]
  simp only [View.readAt_eq_ld, harg2.read_unread, harg3.read_unread, harg9.read_unread, harg10.read_unread, harg11.read_unread, harg12.read_unread, harg13.read_unread, View.ld_unit_zero (S := S256x1024) hz2, View.ld_unit_zero (S := S1x256x1024) hz3, View.ld_unit_zero (S := S1x19x256x1024) hz4]

theorem sout_B_4 : sout0_B_4 c i arg2 harg2 arg3 harg3 arg4 harg4 arg5 harg5 arg6 harg6 arg7 harg7 arg8 harg8 arg9 harg9 arg10 harg10 arg11 harg11 arg12 harg12 arg13 harg13 hc0 hc1 x0 x1 xs0 xs1 xs2 xs3 xs4 = k0_pay22 (k0_pay16 x1) xs4 := by
  unfold sout0_B_4
  rw [View.read_writes_eq_canon _ _ _ (scover0_B_4 c i arg2 harg2 arg3 harg3 arg4 harg4 arg5 harg5 arg6 harg6 arg7 harg7 arg8 harg8 arg9 harg9 arg10 harg10 arg11 harg11 arg12 harg12 arg13 harg13 hc0 hc1 x0 x1 xs0 xs1 xs2 xs3 xs4)]
  unfold kernelRun0_B
  dsimp only
  sl_unfold_words
  rw [View.canon_unit_zero hz2]
  simp only [View.readAt_eq_ld, harg2.read_unread, harg3.read_unread, harg9.read_unread, harg10.read_unread, harg11.read_unread, harg12.read_unread, harg13.read_unread, View.ld_unit_zero (S := S256x1024) hz2, View.ld_unit_zero (S := S1x256x1024) hz3, View.ld_unit_zero (S := S1x19x256x1024) hz4]

/-! The five output blocks of case B: each is the broadcast total of the sum its scratch was just left with
    (the load of the scratch reads back the one covering store before it). -/

theorem out_B_2 : out0_B_2 c i arg2 harg2 arg3 harg3 arg4 harg4 arg5 harg5 arg6 harg6 arg7 harg7 arg8 harg8 arg9 harg9 arg10 harg10 arg11 harg11 arg12 harg12 arg13 harg13 hc0 hc1 x0 x1 xs0 xs1 xs2 xs3 xs4 = k0_pay2 (k0_pay18 (k0_pay16 x1) xs0 (k0_pay17 x0 x1)) := by
  unfold out0_B_2
  rw [View.read_writes_eq_canon _ _ _ (cover0_B_2 c i arg2 harg2 arg3 harg3 arg4 harg4 arg5 harg5 arg6 harg6 arg7 harg7 arg8 harg8 arg9 harg9 arg10 harg10 arg11 harg11 arg12 harg12 arg13 harg13 hc0 hc1 x0 x1 xs0 xs1 xs2 xs3 xs4)]
  unfold kernelRun0_B
  dsimp only
  sl_unfold_words
  rw [View.canon_unit_zero (S := S1x1x128) hz3, View.readCov_unit_zero (S := S256x1024) _ hz2]
  simp only [View.readAt_eq_ld, harg2.read_unread, harg3.read_unread, harg9.read_unread, harg10.read_unread, harg11.read_unread, harg12.read_unread, harg13.read_unread, View.ld_unit_zero (S := S256x1024) hz2, View.ld_unit_zero (S := S1x256x1024) hz3, View.ld_unit_zero (S := S1x19x256x1024) hz4]

theorem out_B_3 : out0_B_3 c i arg2 harg2 arg3 harg3 arg4 harg4 arg5 harg5 arg6 harg6 arg7 harg7 arg8 harg8 arg9 harg9 arg10 harg10 arg11 harg11 arg12 harg12 arg13 harg13 hc0 hc1 x0 x1 xs0 xs1 xs2 xs3 xs4 = k0_pay3 (k0_pay19 (k0_pay13 x0 x1) (k0_pay15 x1) (k0_pay16 x1) xs1) := by
  unfold out0_B_3
  rw [View.read_writes_eq_canon _ _ _ (cover0_B_3 c i arg2 harg2 arg3 harg3 arg4 harg4 arg5 harg5 arg6 harg6 arg7 harg7 arg8 harg8 arg9 harg9 arg10 harg10 arg11 harg11 arg12 harg12 arg13 harg13 hc0 hc1 x0 x1 xs0 xs1 xs2 xs3 xs4)]
  unfold kernelRun0_B
  dsimp only
  sl_unfold_words
  rw [View.canon_unit_zero (S := S1x1x128) hz3, View.readCov_unit_zero (S := S256x1024) _ hz2]
  simp only [View.readAt_eq_ld, harg2.read_unread, harg3.read_unread, harg9.read_unread, harg10.read_unread, harg11.read_unread, harg12.read_unread, harg13.read_unread, View.ld_unit_zero (S := S256x1024) hz2, View.ld_unit_zero (S := S1x256x1024) hz3, View.ld_unit_zero (S := S1x19x256x1024) hz4]

theorem out_B_4 : out0_B_4 c i arg2 harg2 arg3 harg3 arg4 harg4 arg5 harg5 arg6 harg6 arg7 harg7 arg8 harg8 arg9 harg9 arg10 harg10 arg11 harg11 arg12 harg12 arg13 harg13 hc0 hc1 x0 x1 xs0 xs1 xs2 xs3 xs4 = k0_pay4 (k0_pay20 (k0_pay14 x1) xs2) := by
  unfold out0_B_4
  rw [View.read_writes_eq_canon _ _ _ (cover0_B_4 c i arg2 harg2 arg3 harg3 arg4 harg4 arg5 harg5 arg6 harg6 arg7 harg7 arg8 harg8 arg9 harg9 arg10 harg10 arg11 harg11 arg12 harg12 arg13 harg13 hc0 hc1 x0 x1 xs0 xs1 xs2 xs3 xs4)]
  unfold kernelRun0_B
  dsimp only
  sl_unfold_words
  rw [View.canon_unit_zero (S := S1x1x128) hz3, View.readCov_unit_zero (S := S256x1024) _ hz2]
  simp only [View.readAt_eq_ld, harg2.read_unread, harg3.read_unread, harg9.read_unread, harg10.read_unread, harg11.read_unread, harg12.read_unread, harg13.read_unread, View.ld_unit_zero (S := S256x1024) hz2, View.ld_unit_zero (S := S1x256x1024) hz3, View.ld_unit_zero (S := S1x19x256x1024) hz4]

theorem out_B_5 : out0_B_5 c i arg2 harg2 arg3 harg3 arg4 harg4 arg5 harg5 arg6 harg6 arg7 harg7 arg8 harg8 arg9 harg9 arg10 harg10 arg11 harg11 arg12 harg12 arg13 harg13 hc0 hc1 x0 x1 xs0 xs1 xs2 xs3 xs4 = k0_pay5 (k0_pay21 (k0_pay15 x1) xs3) := by
  unfold out0_B_5
  rw [View.read_writes_eq_canon _ _ _ (cover0_B_5 c i arg2 harg2 arg3 harg3 arg4 harg4 arg5 harg5 arg6 harg6 arg7 harg7 arg8 harg8 arg9 harg9 arg10 harg10 arg11 harg11 arg12 harg12 arg13 harg13 hc0 hc1 x0 x1 xs0 xs1 xs2 xs3 xs4)]
  unfold kernelRun0_B
  dsimp only
  sl_unfold_words
  rw [View.canon_unit_zero (S := S1x1x128) hz3, View.readCov_unit_zero (S := S256x1024) _ hz2]
  simp only [View.readAt_eq_ld, harg2.read_unread, harg3.read_unread, harg9.read_unread, harg10.read_unread, harg11.read_unread, harg12.read_unread, harg13.read_unread, View.ld_unit_zero (S := S256x1024) hz2, View.ld_unit_zero (S := S1x256x1024) hz3, View.ld_unit_zero (S := S1x19x256x1024) hz4]

theorem out_B_6 : out0_B_6 c i arg2 harg2 arg3 harg3 arg4 harg4 arg5 harg5 arg6 harg6 arg7 harg7 arg8 harg8 arg9 harg9 arg10 harg10 arg11 harg11 arg12 harg12 arg13 harg13 hc0 hc1 x0 x1 xs0 xs1 xs2 xs3 xs4 = k0_pay1 (k0_pay6 (k0_pay22 (k0_pay16 x1) xs4)) := by
  unfold out0_B_6
  rw [View.read_writes_eq_canon _ _ _ (cover0_B_6 c i arg2 harg2 arg3 harg3 arg4 harg4 arg5 harg5 arg6 harg6 arg7 harg7 arg8 harg8 arg9 harg9 arg10 harg10 arg11 harg11 arg12 harg12 arg13 harg13 hc0 hc1 x0 x1 xs0 xs1 xs2 xs3 xs4)]
  unfold kernelRun0_B
  dsimp only
  sl_unfold_words
  rw [View.canon_unit_zero (S := S1x1x128) hz3, View.readCov_unit_zero (S := S256x1024) _ hz2]
  simp only [View.readAt_eq_ld, harg2.read_unread, harg3.read_unread, harg9.read_unread, harg10.read_unread, harg11.read_unread, harg12.read_unread, harg13.read_unread, View.ld_unit_zero (S := S256x1024) hz2, View.ld_unit_zero (S := S1x256x1024) hz3, View.ld_unit_zero (S := S1x19x256x1024) hz4]

end caseB

/-! ## Case A (grid points with j = 0): each scratch is first stored whole with zeros, which the load reads back -/

section caseA
variable (hc0 : cond0_0 i) (hc1 : ¬cond0_1 i)
    (x0 : Vec F S1x19x256x1024 .f32) (x1 : Vec F S1x256x1024 .i32)

theorem sout_A_0 : sout0_A_0 c i arg2 harg2 arg3 harg3 arg4 harg4 arg5 harg5 arg6 harg6 arg7 harg7 arg8 harg8 arg9 harg9 arg10 harg10 arg11 harg11 arg12 harg12 arg13 harg13 hc0 hc1 x0 x1 = k0_pay18 (k0_pay16 x1) k0_pay7 (k0_pay17 x0 x1) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 hc0 hc1 x0 x1)]
  unfold kernelRun0_A
  dsimp only
  sl_unfold_words
  rw [View.canon_cons_unit_zero (S := S256x1024) hz2, View.readCov_unit_zero (S := S256x1024) _ hz2]
  simp only [View.readAt_eq_ld, harg2.read_unread, harg3.read_unread, harg9.read_unread, harg10.read_unread, harg11.read_unread, harg12.read_unread, harg13.read_unread, View.ld_unit_zero (S := S256x1024) hz2, View.ld_unit_zero (S := S1x256x1024) hz3, View.ld_unit_zero (S := S1x19x256x1024) hz4]

theorem sout_A_1 : sout0_A_1 c i arg2 harg2 arg3 harg3 arg4 harg4 arg5 harg5 arg6 harg6 arg7 harg7 arg8 harg8 arg9 harg9 arg10 harg10 arg11 harg11 arg12 harg12 arg13 harg13 hc0 hc1 x0 x1 = k0_pay19 (k0_pay13 x0 x1) (k0_pay15 x1) (k0_pay16 x1) k0_pay8 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 hc0 hc1 x0 x1)]
  unfold kernelRun0_A
  dsimp only
  sl_unfold_words
  rw [View.canon_cons_unit_zero (S := S256x1024) hz2, View.readCov_unit_zero (S := S256x1024) _ hz2]
  simp only [View.readAt_eq_ld, harg2.read_unread, harg3.read_unread, harg9.read_unread, harg10.read_unread, harg11.read_unread, harg12.read_unread, harg13.read_unread, View.ld_unit_zero (S := S256x1024) hz2, View.ld_unit_zero (S := S1x256x1024) hz3, View.ld_unit_zero (S := S1x19x256x1024) hz4]

theorem sout_A_2 : sout0_A_2 c i arg2 harg2 arg3 harg3 arg4 harg4 arg5 harg5 arg6 harg6 arg7 harg7 arg8 harg8 arg9 harg9 arg10 harg10 arg11 harg11 arg12 harg12 arg13 harg13 hc0 hc1 x0 x1 = k0_pay20 (k0_pay14 x1) k0_pay9 := by
  unfold sout0_A_2
  rw [View.read_writes_eq_canon _ _ _ (scover0_A_2 c i arg2 harg2 arg3 harg3 arg4 harg4 arg5 harg5 arg6 harg6 arg7 harg7 arg8 harg8 arg9 harg9 arg10 harg10 arg11 harg11 arg12 harg12 arg13 harg13 hc0 hc1 x0 x1)]
  unfold kernelRun0_A
  dsimp only
  sl_unfold_words
  rw [View.canon_cons_unit_zero (S := S256x1024) hz2, View.readCov_unit_zero (S := S256x1024) _ hz2]
  simp only [View.readAt_eq_ld, harg2.read_unread, harg3.read_unread, harg9.read_unread, harg10.read_unread, harg11.read_unread, harg12.read_unread, harg13.read_unread, View.ld_unit_zero (S := S256x1024) hz2, View.ld_unit_zero (S := S1x256x1024) hz3, View.ld_unit_zero (S := S1x19x256x1024) hz4]

theorem sout_A_3 : sout0_A_3 c i arg2 harg2 arg3 harg3 arg4 harg4 arg5 harg5 arg6 harg6 arg7 harg7 arg8 harg8 arg9 harg9 arg10 harg10 arg11 harg11 arg12 harg12 arg13 harg13 hc0 hc1 x0 x1 = k0_pay21 (k0_pay15 x1) k0_pay10 := by
  unfold sout0_A_3
  rw [View.read_writes_eq_canon _ _ _ (scover0_A_3 c i arg2 harg2 arg3 harg3 arg4 harg4 arg5 harg5 arg6 harg6 arg7 harg7 arg8 harg8 arg9 harg9 arg10 harg10 arg11 harg11 arg12 harg12 arg13 harg13 hc0 hc1 x0 x1)]
  unfold kernelRun0_A
  dsimp only
  sl_unfold_words
  rw [View.canon_cons_unit_zero (S := S256x1024) hz2, View.readCov_unit_zero (S := S256x1024) _ hz2]
  simp only [View.readAt_eq_ld, harg2.read_unread, harg3.read_unread, harg9.read_unread, harg10.read_unread, harg11.read_unread, harg12.read_unread, harg13.read_unread, View.ld_unit_zero (S := S256x1024) hz2, View.ld_unit_zero (S := S1x256x1024) hz3, View.ld_unit_zero (S := S1x19x256x1024) hz4]

theorem sout_A_4 : sout0_A_4 c i arg2 harg2 arg3 harg3 arg4 harg4 arg5 harg5 arg6 harg6 arg7 harg7 arg8 harg8 arg9 harg9 arg10 harg10 arg11 harg11 arg12 harg12 arg13 harg13 hc0 hc1 x0 x1 = k0_pay22 (k0_pay16 x1) k0_pay11 := by
  unfold sout0_A_4
  rw [View.read_writes_eq_canon _ _ _ (scover0_A_4 c i arg2 harg2 arg3 harg3 arg4 harg4 arg5 harg5 arg6 harg6 arg7 harg7 arg8 harg8 arg9 harg9 arg10 harg10 arg11 harg11 arg12 harg12 arg13 harg13 hc0 hc1 x0 x1)]
  unfold kernelRun0_A
  dsimp only
  sl_unfold_words
  rw [View.canon_cons_unit_zero (S := S256x1024) hz2, View.readCov_unit_zero (S := S256x1024) _ hz2]
  simp only [View.readAt_eq_ld, harg2.read_unread, harg3.read_unread, harg9.read_unread, harg10.read_unread, harg11.read_unread, harg12.read_unread, harg13.read_unread, View.ld_unit_zero (S := S256x1024) hz2, View.ld_unit_zero (S := S1x256x1024) hz3, View.ld_unit_zero (S := S1x19x256x1024) hz4]

end caseA

end Cert.KernelIdeal.Pieces

end
-- ==== Proof.KPoints.lean ====
/-
  What the accumulators and the result blocks hold after a grid point, as payloads of the point's input blocks.

  After an even point (the first half of an image) accumulator k holds the update of the zero block by the point's
  contributions; after an odd point the k-th result block holds the total of the update, by the point's
  contributions, of what the point before left in accumulator k.
-/
import proofs.«155759_j20598663151778_2_alg».proof.Proof.FrameDefsP
import proofs.«155759_j20598663151778_2_alg».proof.Proof.KPieces

set_option maxRecDepth 16384

noncomputable section

open Idealize.ShloMosaic Idealize.ShloMosaic.TcCoe Idealize.SL.Sem

namespace Cert.KernelIdeal.KPoints

open Cert.KernelIdeal Cert.KernelIdeal.Gen Cert.KernelIdeal.GenP

variable {F : FTy → Type} [FloatOps F]
variable (m : (ℓ : Loc nD τ sig) → Buf (Elt F) ℓ)

/-! ## After an even point: the five accumulators -/

/-- The accumulator of the positive pixels' loss. -/
theorem scrA_0 (c : Dev nD) (t : Fin cfg0.N) (h0 : t.val % 2 = 0) (h1 : ¬t.val % 2 = 1) :
    (outsAt0 m c t.val t.isLt).2.2.2.2.2.1
      = k0_pay18 (k0_pay16 (iblk m c 1 t)) k0_pay7 (k0_pay17 (iblk m c 0 t) (iblk m c 1 t)) := by
  have e := congrArg (fun p => p.2.2.2.2.2.1) (outsAt0_A m c t h0 h1)
  dsimp only at e
  exact e.trans (Pieces.sout_A_0 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (iblk m c 0 t) (iblk m c 1 t))

/-- The accumulator of the negative pixels' loss. -/
theorem scrA_1 (c : Dev nD) (t : Fin cfg0.N) (h0 : t.val % 2 = 0) (h1 : ¬t.val % 2 = 1) :
    (outsAt0 m c t.val t.isLt).2.2.2.2.2.2.1
      = k0_pay19 (k0_pay13 (iblk m c 0 t) (iblk m c 1 t)) (k0_pay15 (iblk m c 1 t)) (k0_pay16 (iblk m c 1 t)) k0_pay8 := by
  have e := congrArg (fun p => p.2.2.2.2.2.2.1) (outsAt0_A m c t h0 h1)
  dsimp only at e
  exact e.trans (Pieces.sout_A_1 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (iblk m c 0 t) (iblk m c 1 t))

/-- The accumulator of the positive count. -/
theorem scrA_2 (c : Dev nD) (t : Fin cfg0.N) (h0 : t.val % 2 = 0) (h1 : ¬t.val % 2 = 1) :
    (outsAt0 m c t.val t.isLt).2.2.2.2.2.2.2.1 = k0_pay20 (k0_pay14 (iblk m c 1 t)) k0_pay9 := by
  have e := congrArg (fun p => p.2.2.2.2.2.2.2.1) (outsAt0_A m c t h0 h1)
  dsimp only at e
  exact e.trans (Pieces.sout_A_2 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (iblk m c 0 t) (iblk m c 1 t))

/-- The accumulator of the negative count. -/
theorem scrA_3 (c : Dev nD) (t : Fin cfg0.N) (h0 : t.val % 2 = 0) (h1 : ¬t.val % 2 = 1) :
    (outsAt0 m c t.val t.isLt).2.2.2.2.2.2.2.2.1 = k0_pay21 (k0_pay15 (iblk m c 1 t)) k0_pay10 := by
  have e := congrArg (fun p => p.2.2.2.2.2.2.2.2.1) (outsAt0_A m c t h0 h1)
  dsimp only at e
  exact e.trans (Pieces.sout_A_3 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (iblk m c 0 t) (iblk m c 1 t))

/-- The accumulator of the kept count. -/
theorem scrA_4 (c : Dev nD) (t : Fin cfg0.N) (h0 : t.val % 2 = 0) (h1 : ¬t.val % 2 = 1) :
    (outsAt0 m c t.val t.isLt).2.2.2.2.2.2.2.2.2 = k0_pay22 (k0_pay16 (iblk m c 1 t)) k0_pay11 := by
  have e := congrArg (fun p => p.2.2.2.2.2.2.2.2.2) (outsAt0_A m c t h0 h1)
  dsimp only at e
  exact e.trans (Pieces.sout_A_4 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (iblk m c 0 t) (iblk m c 1 t))

/-! ## After an odd point: the five result blocks, over what the point before left in the accumulators -/

/-- The positive pixels' loss. -/
theorem outB_2 (c : Dev nD) (t : Fin cfg0.N) (h0 : ¬t.val % 2 = 0) (h1 : t.val % 2 = 1) :
    (outsAt0 m c t.val t.isLt).1
      = k0_pay2 (k0_pay18 (k0_pay16 (iblk m c 1 t)) (outsAt0 m c (t.val - 1) (Nat.lt_of_le_of_lt (Nat.sub_le _ _) t.isLt)).2.2.2.2.2.1 (k0_pay17 (iblk m c 0 t) (iblk m c 1 t))) := by
  have e := congrArg (fun p => p.1) (outsAt0_B m c t h0 h1)
  dsimp only at e
  exact e.trans (Pieces.out_B_2 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2)

/-- The negative pixels' loss. -/
theorem outB_3 (c : Dev nD) (t : Fin cfg0.N) (h0 : ¬t.val % 2 = 0) (h1 : t.val % 2 = 1) :
    (outsAt0 m c t.val t.isLt).2.1
      = k0_pay3 (k0_pay19 (k0_pay13 (iblk m c 0 t) (iblk m c 1 t)) (k0_pay15 (iblk m c 1 t)) (k0_pay16 (iblk m c 1 t))
          (outsAt0 m c (t.val - 1) (Nat.lt_of_le_of_lt (Nat.sub_le _ _) t.isLt)).2.2.2.2.2.2.1) := by
  have e := congrArg (fun p => p.2.1) (outsAt0_B m c t h0 h1)
  dsimp only at e
  exact e.trans (Pieces.out_B_3 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2)

/-- The positive count. -/
theorem outB_4 (c : Dev nD) (t : Fin cfg0.N) (h0 : ¬t.val % 2 = 0) (h1 : t.val % 2 = 1) :
    (outsAt0 m c t.val t.isLt).2.2.1
      = k0_pay4 (k0_pay20 (k0_pay14 (iblk m c 1 t)) (outsAt0 m c (t.val - 1) (Nat.lt_of_le_of_lt (Nat.sub_le _ _) t.isLt)).2.2.2.2.2.2.2.1) := by
  have e := congrArg (fun p => p.2.2.1) (outsAt0_B m c t h0 h1)
  dsimp only at e
  exact e.trans (Pieces.out_B_4 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2)

/-- The negative count. -/
theorem outB_5 (c : Dev nD) (t : Fin cfg0.N) (h0 : ¬t.val % 2 = 0) (h1 : t.val % 2 = 1) :
    (outsAt0 m c t.val t.isLt).2.2.2.1
      = k0_pay5 (k0_pay21 (k0_pay15 (iblk m c 1 t)) (outsAt0 m c (t.val - 1) (Nat.lt_of_le_of_lt (Nat.sub_le _ _) t.isLt)).2.2.2.2.2.2.2.2.1) := by
  have e := congrArg (fun p => p.2.2.2.1) (outsAt0_B m c t h0 h1)
  dsimp only at e
  exact e.trans (Pieces.out_B_5 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2)

/-- The kept count. -/
theorem outB_6 (c : Dev nD) (t : Fin cfg0.N) (h0 : ¬t.val % 2 = 0) (h1 : t.val % 2 = 1) :
    (outsAt0 m c t.val t.isLt).2.2.2.2.1
      = k0_pay1 (k0_pay6 (k0_pay22 (k0_pay16 (iblk m c 1 t)) (outsAt0 m c (t.val - 1) (Nat.lt_of_le_of_lt (Nat.sub_le _ _) t.isLt)).2.2.2.2.2.2.2.2.2)) := by
  have e := congrArg (fun p => p.2.2.2.2.1) (outsAt0_B m c t h0 h1)
  dsimp only at e
  exact e.trans (Pieces.out_B_6 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2)

end Cert.KernelIdeal.KPoints

end
-- ==== Proof.KArrays.lean ====
/-
  The kernel's five result arrays after the run.

  Result array k is [8, 1, 128]; block n of it is written once, at the odd grid point 2n + 1, with the total over
  the 256·1024 positions of accumulator k: the zero block, plus the first half's contributions (left there by
  point 2n), plus the second half's. So entry (n, 0, l) is the sum over r < 256, w < 1024 of
  (0 + f_k(n, r, w)) + f_k(n, 256 + r, w) for the specification's k-th per-pixel quantity f_k, and the eight blocks
  cover the array.
-/
import proofs.«155759_j20598663151778_2_alg».proof.Proof.FrameDefsP
import proofs.«155759_j20598663151778_2_alg».proof.Proof.Spec
import proofs.«155759_j20598663151778_2_alg».proof.Proof.KPay
import proofs.«155759_j20598663151778_2_alg».proof.Proof.KBlocks
import proofs.«155759_j20598663151778_2_alg».proof.Proof.KPoints
import proofs.«155759_j20598663151778_2_alg».proof.Proof.KTotals
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.KernelIdeal.KArrays

open Cert.KernelIdeal Cert.KernelIdeal.Gen Cert.KernelIdeal.GenP Cert.KernelIdeal.KTotals

variable (m : (ℓ : Loc nD τ sig) → Buf (Elt Ideal) ℓ)

/-- The argument arrays as the region finds them. -/
abbrev Pm (c : Dev nD) : Cert.Spec.PArr := V m c main_arg0
abbrev Tm (c : Dev nD) : Cert.Spec.TArr := V m c main_arg1

/-- The point before an odd point is even, and works on the same image. -/
theorem prev_facts (t : Fin cfg0.N) (h1 : t.val % 2 = 1) :
    t.val - 1 < cfg0.N ∧ (t.val - 1) % 2 = 0 ∧ ¬(t.val - 1) % 2 = 1 ∧ (t.val - 1) / 2 = t.val / 2 := by
  have := t.isLt
  omega

/-- Point t's two input blocks read the arrays at image t / 2; an even point's rows are the first half, an odd point's the second. -/
theorem readsP (c : Dev nD) (t : Fin cfg0.N) (r : Fin 256) (w : Fin 1024) (n : Fin 8) (h : Fin 512)
    (hn : n.val = t.val / 2) (hh : h.val = t.val % 2 * 256 + r.val) (cl : Fin 19) :
    iblk m c 0 t (ix4 (0 : Fin 1) cl r w) = Pm m c (ix4 n cl h w) := KBlocks.blockP m c t cl r w n h hn hh
theorem readsT (c : Dev nD) (t : Fin cfg0.N) (r : Fin 256) (w : Fin 1024) (n : Fin 8) (h : Fin 512)
    (hn : n.val = t.val / 2) (hh : h.val = t.val % 2 * 256 + r.val) :
    iblk m c 1 t (ix3 (0 : Fin 1) r w) = Tm m c (ix3 n h w) := KBlocks.blockT m c t r w n h hn hh

/-! ## Result array 0: the positive pixels' loss -/

/-- A result block, cut to the part written back, is a function read through the point's block when it is so index by index. -/
theorem flush_fun2 (t : Fin cfg0.N) (X : Vec Ideal S1x1x128 .f32) (g : S8x1x128.Idx → EReal)
    (h : ∀ j : S1x1x128.Idx, X j = g (((cfg0.win 2).blk t).view.emb j)) :
    (cfg0.win 2).cut (grid0.coords t) X = ((cfg0.win 2).blk t).view.read (Elt Ideal) g := funext h

theorem flushed2_eq (c : Dev nD) (t : Fin cfg0.N) (hf : (cfg0.win 2).flush t = true) :
    (dats m 0 c).flushed 2 t = ((cfg0.win 2).blk t).view.read (Elt Ideal) (G (Cert.Spec.fSpos (Pm m c) (Tm m c))) := by
  have h1 : t.val % 2 = 1 := (flush0_2 t).mp hf
  have h0 : ¬t.val % 2 = 0 := by omega
  obtain ⟨hlt, h0', h1', hdiv⟩ := prev_facts t h1
  show (cfg0.win 2).cut (grid0.coords t) ((dats m 0 c).after 2 t) = _
  rw [after0_2, KPoints.outB_2 m c t h0 h1]
  refine flush_fun2 t _ _ fun j => ?_
  have hn : ((((cfg0.win 2).blk t).view.emb j) 0).val = t.val / 2 := by
    obtain ⟨⟨e0, -, -⟩, -⟩ := KBlocks.idx_out t
    have hj : (j 0).val < 1 := (j 0).isLt
    show win0_2.index t (0 : Fin 3) * 1 + 1 * (j 0).val = t.val / 2
    omega
  rw [Pay.pay2_apply]
  unfold G Gn
  refine Finset.sum_congr rfl fun y _ => ?_
  obtain ⟨r, w, rfl⟩ : ∃ (r : Fin 256) (w : Fin 1024), y = ix2 r w := ⟨y 0, y 1, eq_ix2 y⟩
  rw [Pay.pay18_apply, KPoints.scrA_0 m c ⟨t.val - 1, hlt⟩ h0' h1', Pay.pay18_apply, Pay.pay7_apply]
  rw [KBlocks.contrib_spos _ _ (Pm m c) (Tm m c) r w _ (Cert.Spec.lo r)
        (readsP m c ⟨t.val - 1, hlt⟩ r w _ _ (hn.trans hdiv.symm) (by show r.val = (t.val - 1) % 2 * 256 + r.val; omega))
        (readsT m c ⟨t.val - 1, hlt⟩ r w _ _ (hn.trans hdiv.symm) (by show r.val = (t.val - 1) % 2 * 256 + r.val; omega)),
      KBlocks.contrib_spos _ _ (Pm m c) (Tm m c) r w _ (Cert.Spec.hi r)
        (readsP m c t r w _ _ hn (by show 256 + r.val = t.val % 2 * 256 + r.val; omega))
        (readsT m c t r w _ _ hn (by show 256 + r.val = t.val % 2 * 256 + r.val; omega))]

theorem mem_blk2 (t : Fin cfg0.N) (i : S8x1x128.Idx) :
    i ∈ ((cfg0.win 2).blk t).view.set ↔ ∀ a : Fin 3, win0_2.index t a * S1x1x128.size a ≤ (i a).val ∧ (i a).val < win0_2.index t a * S1x1x128.size a + S1x1x128.size a := by
  show i ∈ ((View.whole main_v0_0).slice (win0_2.rect t)).set ↔ _
  rw [View.set_slice_whole, Rect.mem_set_unit]
  exact Iff.rfl

theorem cover2 (i : S8x1x128.Idx) : ∃ t : Fin cfg0.N, (cfg0.win 2).flush t = true ∧ i ∈ ((cfg0.win 2).blk t).view.set := by
  have hN : cfg0.N = 16 := N_0
  have hi0 : (i 0).val < 8 := (i 0).isLt
  have hi1 : (i 1).val < 1 := (i 1).isLt
  have hi2 : (i 2).val < 128 := (i 2).isLt
  have hlt : 2 * (i 0).val + 1 < cfg0.N := by omega
  obtain ⟨⟨e0, e1, e2⟩, -⟩ := KBlocks.idx_out (⟨2 * (i 0).val + 1, hlt⟩ : Fin cfg0.N)
  have e0' : win0_2.index (⟨2 * (i 0).val + 1, hlt⟩ : Fin cfg0.N) (0 : Fin 3) = (i 0).val := by
    rw [e0]; show (2 * (i 0).val + 1) / 2 = (i 0).val; omega
  refine ⟨⟨2 * (i 0).val + 1, hlt⟩, (flush0_2 _).mpr (by show (2 * (i 0).val + 1) % 2 = 1; omega), ?_⟩
  rw [mem_blk2]
  intro a
  match a with
  | ⟨0, _⟩ => show win0_2.index (⟨2 * (i 0).val + 1, hlt⟩ : Fin cfg0.N) (0 : Fin 3) * 1 ≤ (i 0).val ∧ (i 0).val < win0_2.index (⟨2 * (i 0).val + 1, hlt⟩ : Fin cfg0.N) (0 : Fin 3) * 1 + 1; omega
  | ⟨1, _⟩ => show win0_2.index (⟨2 * (i 0).val + 1, hlt⟩ : Fin cfg0.N) (1 : Fin 3) * 1 ≤ (i 1).val ∧ (i 1).val < win0_2.index (⟨2 * (i 0).val + 1, hlt⟩ : Fin cfg0.N) (1 : Fin 3) * 1 + 1; omega
  | ⟨2, _⟩ => show win0_2.index (⟨2 * (i 0).val + 1, hlt⟩ : Fin cfg0.N) (2 : Fin 3) * 128 ≤ (i 2).val ∧ (i 2).val < win0_2.index (⟨2 * (i 0).val + 1, hlt⟩ : Fin cfg0.N) (2 : Fin 3) * 128 + 128; omega

/-- Result array 0 after the run. -/
theorem final2 (c : Dev nD) : (dats m 0 c).arrAt 2 cfg0.N = G (Cert.Spec.fSpos (Pm m c) (Tm m c)) :=
  (dats m 0 c).arrAt_eq_of_cover 2 _ (flushed2_eq m c) cover2

/-! ## Result array 1: the negative pixels' loss -/

theorem flush_fun3 (t : Fin cfg0.N) (X : Vec Ideal S1x1x128 .f32) (g : S8x1x128.Idx → EReal)
    (h : ∀ j : S1x1x128.Idx, X j = g (((cfg0.win 3).blk t).view.emb j)) :
    (cfg0.win 3).cut (grid0.coords t) X = ((cfg0.win 3).blk t).view.read (Elt Ideal) g := funext h

theorem flushed3_eq (c : Dev nD) (t : Fin cfg0.N) (hf : (cfg0.win 3).flush t = true) :
    (dats m 0 c).flushed 3 t = ((cfg0.win 3).blk t).view.read (Elt Ideal) (G (Cert.Spec.fSneg (Pm m c) (Tm m c))) := by
  have h1 : t.val % 2 = 1 := (flush0_3 t).mp hf
  have h0 : ¬t.val % 2 = 0 := by omega
  obtain ⟨hlt, h0', h1', hdiv⟩ := prev_facts t h1
  show (cfg0.win 3).cut (grid0.coords t) ((dats m 0 c).after 3 t) = _
  rw [after0_3, KPoints.outB_3 m c t h0 h1]
  refine flush_fun3 t _ _ fun j => ?_
  have hn : ((((cfg0.win 3).blk t).view.emb j) 0).val = t.val / 2 := by
    obtain ⟨-, ⟨e0, -, -⟩, -⟩ := KBlocks.idx_out t
    have hj : (j 0).val < 1 := (j 0).isLt
    show win0_3.index t (0 : Fin 3) * 1 + 1 * (j 0).val = t.val / 2
    omega
  rw [Pay.pay3_apply]
  unfold G Gn
  refine Finset.sum_congr rfl fun y _ => ?_
  obtain ⟨r, w, rfl⟩ : ∃ (r : Fin 256) (w : Fin 1024), y = ix2 r w := ⟨y 0, y 1, eq_ix2 y⟩
  rw [Pay.pay19_apply, KPoints.scrA_1 m c ⟨t.val - 1, hlt⟩ h0' h1', Pay.pay19_apply, Pay.pay8_apply]
  rw [KBlocks.contrib_sneg _ _ (Pm m c) (Tm m c) r w _ (Cert.Spec.lo r)
        (readsP m c ⟨t.val - 1, hlt⟩ r w _ _ (hn.trans hdiv.symm) (by show r.val = (t.val - 1) % 2 * 256 + r.val; omega))
        (readsT m c ⟨t.val - 1, hlt⟩ r w _ _ (hn.trans hdiv.symm) (by show r.val = (t.val - 1) % 2 * 256 + r.val; omega)),
      KBlocks.contrib_sneg _ _ (Pm m c) (Tm m c) r w _ (Cert.Spec.hi r)
        (readsP m c t r w _ _ hn (by show 256 + r.val = t.val % 2 * 256 + r.val; omega))
        (readsT m c t r w _ _ hn (by show 256 + r.val = t.val % 2 * 256 + r.val; omega))]

theorem mem_blk3 (t : Fin cfg0.N) (i : S8x1x128.Idx) :
    i ∈ ((cfg0.win 3).blk t).view.set ↔ ∀ a : Fin 3, win0_3.index t a * S1x1x128.size a ≤ (i a).val ∧ (i a).val < win0_3.index t a * S1x1x128.size a + S1x1x128.size a := by
  show i ∈ ((View.whole main_v0_1).slice (win0_3.rect t)).set ↔ _
  rw [View.set_slice_whole, Rect.mem_set_unit]
  exact Iff.rfl

theorem cover3 (i : S8x1x128.Idx) : ∃ t : Fin cfg0.N, (cfg0.win 3).flush t = true ∧ i ∈ ((cfg0.win 3).blk t).view.set := by
  have hN : cfg0.N = 16 := N_0
  have hi0 : (i 0).val < 8 := (i 0).isLt
  have hi1 : (i 1).val < 1 := (i 1).isLt
  have hi2 : (i 2).val < 128 := (i 2).isLt
  have hlt : 2 * (i 0).val + 1 < cfg0.N := by omega
  obtain ⟨-, ⟨e0, e1, e2⟩, -⟩ := KBlocks.idx_out (⟨2 * (i 0).val + 1, hlt⟩ : Fin cfg0.N)
  have e0' : win0_3.index (⟨2 * (i 0).val + 1, hlt⟩ : Fin cfg0.N) (0 : Fin 3) = (i 0).val := by
    rw [e0]; show (2 * (i 0).val + 1) / 2 = (i 0).val; omega
  refine ⟨⟨2 * (i 0).val + 1, hlt⟩, (flush0_3 _).mpr (by show (2 * (i 0).val + 1) % 2 = 1; omega), ?_⟩
  rw [mem_blk3]
  intro a
  match a with
  | ⟨0, _⟩ => show win0_3.index (⟨2 * (i 0).val + 1, hlt⟩ : Fin cfg0.N) (0 : Fin 3) * 1 ≤ (i 0).val ∧ (i 0).val < win0_3.index (⟨2 * (i 0).val + 1, hlt⟩ : Fin cfg0.N) (0 : Fin 3) * 1 + 1; omega
  | ⟨1, _⟩ => show win0_3.index (⟨2 * (i 0).val + 1, hlt⟩ : Fin cfg0.N) (1 : Fin 3) * 1 ≤ (i 1).val ∧ (i 1).val < win0_3.index (⟨2 * (i 0).val + 1, hlt⟩ : Fin cfg0.N) (1 : Fin 3) * 1 + 1; omega
  | ⟨2, _⟩ => show win0_3.index (⟨2 * (i 0).val + 1, hlt⟩ : Fin cfg0.N) (2 : Fin 3) * 128 ≤ (i 2).val ∧ (i 2).val < win0_3.index (⟨2 * (i 0).val + 1, hlt⟩ : Fin cfg0.N) (2 : Fin 3) * 128 + 128; omega

/-- Result array 1 after the run. -/
theorem final3 (c : Dev nD) : (dats m 0 c).arrAt 3 cfg0.N = G (Cert.Spec.fSneg (Pm m c) (Tm m c)) :=
  (dats m 0 c).arrAt_eq_of_cover 3 _ (flushed3_eq m c) cover3

/-! ## Result array 2: the positive count -/

theorem flush_fun4 (t : Fin cfg0.N) (X : Vec Ideal S1x1x128 .f32) (g : S8x1x128.Idx → EReal)
    (h : ∀ j : S1x1x128.Idx, X j = g (((cfg0.win 4).blk t).view.emb j)) :
    (cfg0.win 4).cut (grid0.coords t) X = ((cfg0.win 4).blk t).view.read (Elt Ideal) g := funext h

theorem flushed4_eq (c : Dev nD) (t : Fin cfg0.N) (hf : (cfg0.win 4).flush t = true) :
    (dats m 0 c).flushed 4 t = ((cfg0.win 4).blk t).view.read (Elt Ideal) (G (Cert.Spec.fPnum (Tm m c))) := by
  have h1 : t.val % 2 = 1 := (flush0_4 t).mp hf
  have h0 : ¬t.val % 2 = 0 := by omega
  obtain ⟨hlt, h0', h1', hdiv⟩ := prev_facts t h1
  show (cfg0.win 4).cut (grid0.coords t) ((dats m 0 c).after 4 t) = _
  rw [after0_4, KPoints.outB_4 m c t h0 h1]
  refine flush_fun4 t _ _ fun j => ?_
  have hn : ((((cfg0.win 4).blk t).view.emb j) 0).val = t.val / 2 := by
    obtain ⟨-, -, ⟨e0, -, -⟩, -⟩ := KBlocks.idx_out t
    have hj : (j 0).val < 1 := (j 0).isLt
    show win0_4.index t (0 : Fin 3) * 1 + 1 * (j 0).val = t.val / 2
    omega
  rw [Pay.pay4_apply]
  unfold G Gn
  refine Finset.sum_congr rfl fun y _ => ?_
  obtain ⟨r, w, rfl⟩ : ∃ (r : Fin 256) (w : Fin 1024), y = ix2 r w := ⟨y 0, y 1, eq_ix2 y⟩
  rw [Pay.pay20_apply, KPoints.scrA_2 m c ⟨t.val - 1, hlt⟩ h0' h1', Pay.pay20_apply, Pay.pay9_apply]
  rw [KBlocks.contrib_pnum _ (Tm m c) r w _ (Cert.Spec.lo r)
        (readsT m c ⟨t.val - 1, hlt⟩ r w _ _ (hn.trans hdiv.symm) (by show r.val = (t.val - 1) % 2 * 256 + r.val; omega)),
      KBlocks.contrib_pnum _ (Tm m c) r w _ (Cert.Spec.hi r)
        (readsT m c t r w _ _ hn (by show 256 + r.val = t.val % 2 * 256 + r.val; omega))]

theorem mem_blk4 (t : Fin cfg0.N) (i : S8x1x128.Idx) :
    i ∈ ((cfg0.win 4).blk t).view.set ↔ ∀ a : Fin 3, win0_4.index t a * S1x1x128.size a ≤ (i a).val ∧ (i a).val < win0_4.index t a * S1x1x128.size a + S1x1x128.size a := by
  show i ∈ ((View.whole main_v0_2).slice (win0_4.rect t)).set ↔ _
  rw [View.set_slice_whole, Rect.mem_set_unit]
  exact Iff.rfl

theorem cover4 (i : S8x1x128.Idx) : ∃ t : Fin cfg0.N, (cfg0.win 4).flush t = true ∧ i ∈ ((cfg0.win 4).blk t).view.set := by
  have hN : cfg0.N = 16 := N_0
  have hi0 : (i 0).val < 8 := (i 0).isLt
  have hi1 : (i 1).val < 1 := (i 1).isLt
  have hi2 : (i 2).val < 128 := (i 2).isLt
  have hlt : 2 * (i 0).val + 1 < cfg0.N := by omega
  obtain ⟨-, -, ⟨e0, e1, e2⟩, -⟩ := KBlocks.idx_out (⟨2 * (i 0).val + 1, hlt⟩ : Fin cfg0.N)
  have e0' : win0_4.index (⟨2 * (i 0).val + 1, hlt⟩ : Fin cfg0.N) (0 : Fin 3) = (i 0).val := by
    rw [e0]; show (2 * (i 0).val + 1) / 2 = (i 0).val; omega
  refine ⟨⟨2 * (i 0).val + 1, hlt⟩, (flush0_4 _).mpr (by show (2 * (i 0).val + 1) % 2 = 1; omega), ?_⟩
  rw [mem_blk4]
  intro a
  match a with
  | ⟨0, _⟩ => show win0_4.index (⟨2 * (i 0).val + 1, hlt⟩ : Fin cfg0.N) (0 : Fin 3) * 1 ≤ (i 0).val ∧ (i 0).val < win0_4.index (⟨2 * (i 0).val + 1, hlt⟩ : Fin cfg0.N) (0 : Fin 3) * 1 + 1; omega
  | ⟨1, _⟩ => show win0_4.index (⟨2 * (i 0).val + 1, hlt⟩ : Fin cfg0.N) (1 : Fin 3) * 1 ≤ (i 1).val ∧ (i 1).val < win0_4.index (⟨2 * (i 0).val + 1, hlt⟩ : Fin cfg0.N) (1 : Fin 3) * 1 + 1; omega
  | ⟨2, _⟩ => show win0_4.index (⟨2 * (i 0).val + 1, hlt⟩ : Fin cfg0.N) (2 : Fin 3) * 128 ≤ (i 2).val ∧ (i 2).val < win0_4.index (⟨2 * (i 0).val + 1, hlt⟩ : Fin cfg0.N) (2 : Fin 3) * 128 + 128; omega

/-- Result array 2 after the run. -/
theorem final4 (c : Dev nD) : (dats m 0 c).arrAt 4 cfg0.N = G (Cert.Spec.fPnum (Tm m c)) :=
  (dats m 0 c).arrAt_eq_of_cover 4 _ (flushed4_eq m c) cover4

/-! ## Result array 3: the negative count -/

theorem flush_fun5 (t : Fin cfg0.N) (X : Vec Ideal S1x1x128 .f32) (g : S8x1x128.Idx → EReal)
    (h : ∀ j : S1x1x128.Idx, X j = g (((cfg0.win 5).blk t).view.emb j)) :
    (cfg0.win 5).cut (grid0.coords t) X = ((cfg0.win 5).blk t).view.read (Elt Ideal) g := funext h

theorem flushed5_eq (c : Dev nD) (t : Fin cfg0.N) (hf : (cfg0.win 5).flush t = true) :
    (dats m 0 c).flushed 5 t = ((cfg0.win 5).blk t).view.read (Elt Ideal) (G (Cert.Spec.fNnum (Tm m c))) := by
  have h1 : t.val % 2 = 1 := (flush0_5 t).mp hf
  have h0 : ¬t.val % 2 = 0 := by omega
  obtain ⟨hlt, h0', h1', hdiv⟩ := prev_facts t h1
  show (cfg0.win 5).cut (grid0.coords t) ((dats m 0 c).after 5 t) = _
  rw [after0_5, KPoints.outB_5 m c t h0 h1]
  refine flush_fun5 t _ _ fun j => ?_
  have hn : ((((cfg0.win 5).blk t).view.emb j) 0).val = t.val / 2 := by
    obtain ⟨-, -, -, ⟨e0, -, -⟩, -⟩ := KBlocks.idx_out t
    have hj : (j 0).val < 1 := (j 0).isLt
    show win0_5.index t (0 : Fin 3) * 1 + 1 * (j 0).val = t.val / 2
    omega
  rw [Pay.pay5_apply]
  unfold G Gn
  refine Finset.sum_congr rfl fun y _ => ?_
  obtain ⟨r, w, rfl⟩ : ∃ (r : Fin 256) (w : Fin 1024), y = ix2 r w := ⟨y 0, y 1, eq_ix2 y⟩
  rw [Pay.pay21_apply, KPoints.scrA_3 m c ⟨t.val - 1, hlt⟩ h0' h1', Pay.pay21_apply, Pay.pay10_apply]
  rw [KBlocks.contrib_nnum _ (Tm m c) r w _ (Cert.Spec.lo r)
        (readsT m c ⟨t.val - 1, hlt⟩ r w _ _ (hn.trans hdiv.symm) (by show r.val = (t.val - 1) % 2 * 256 + r.val; omega)),
      KBlocks.contrib_nnum _ (Tm m c) r w _ (Cert.Spec.hi r)
        (readsT m c t r w _ _ hn (by show 256 + r.val = t.val % 2 * 256 + r.val; omega))]

theorem mem_blk5 (t : Fin cfg0.N) (i : S8x1x128.Idx) :
    i ∈ ((cfg0.win 5).blk t).view.set ↔ ∀ a : Fin 3, win0_5.index t a * S1x1x128.size a ≤ (i a).val ∧ (i a).val < win0_5.index t a * S1x1x128.size a + S1x1x128.size a := by
  show i ∈ ((View.whole main_v0_3).slice (win0_5.rect t)).set ↔ _
  rw [View.set_slice_whole, Rect.mem_set_unit]
  exact Iff.rfl

theorem cover5 (i : S8x1x128.Idx) : ∃ t : Fin cfg0.N, (cfg0.win 5).flush t = true ∧ i ∈ ((cfg0.win 5).blk t).view.set := by
  have hN : cfg0.N = 16 := N_0
  have hi0 : (i 0).val < 8 := (i 0).isLt
  have hi1 : (i 1).val < 1 := (i 1).isLt
  have hi2 : (i 2).val < 128 := (i 2).isLt
  have hlt : 2 * (i 0).val + 1 < cfg0.N := by omega
  obtain ⟨-, -, -, ⟨e0, e1, e2⟩, -⟩ := KBlocks.idx_out (⟨2 * (i 0).val + 1, hlt⟩ : Fin cfg0.N)
  have e0' : win0_5.index (⟨2 * (i 0).val + 1, hlt⟩ : Fin cfg0.N) (0 : Fin 3) = (i 0).val := by
    rw [e0]; show (2 * (i 0).val + 1) / 2 = (i 0).val; omega
  refine ⟨⟨2 * (i 0).val + 1, hlt⟩, (flush0_5 _).mpr (by show (2 * (i 0).val + 1) % 2 = 1; omega), ?_⟩
  rw [mem_blk5]
  intro a
  match a with
  | ⟨0, _⟩ => show win0_5.index (⟨2 * (i 0).val + 1, hlt⟩ : Fin cfg0.N) (0 : Fin 3) * 1 ≤ (i 0).val ∧ (i 0).val < win0_5.index (⟨2 * (i 0).val + 1, hlt⟩ : Fin cfg0.N) (0 : Fin 3) * 1 + 1; omega
  | ⟨1, _⟩ => show win0_5.index (⟨2 * (i 0).val + 1, hlt⟩ : Fin cfg0.N) (1 : Fin 3) * 1 ≤ (i 1).val ∧ (i 1).val < win0_5.index (⟨2 * (i 0).val + 1, hlt⟩ : Fin cfg0.N) (1 : Fin 3) * 1 + 1; omega
  | ⟨2, _⟩ => show win0_5.index (⟨2 * (i 0).val + 1, hlt⟩ : Fin cfg0.N) (2 : Fin 3) * 128 ≤ (i 2).val ∧ (i 2).val < win0_5.index (⟨2 * (i 0).val + 1, hlt⟩ : Fin cfg0.N) (2 : Fin 3) * 128 + 128; omega

/-- Result array 3 after the run. -/
theorem final5 (c : Dev nD) : (dats m 0 c).arrAt 5 cfg0.N = G (Cert.Spec.fNnum (Tm m c)) :=
  (dats m 0 c).arrAt_eq_of_cover 5 _ (flushed5_eq m c) cover5

/-! ## Result array 4: the kept count -/

theorem flush_fun6 (t : Fin cfg0.N) (X : Vec Ideal S1x1x128 .f32) (g : S8x1x128.Idx → EReal)
    (h : ∀ j : S1x1x128.Idx, X j = g (((cfg0.win 6).blk t).view.emb j)) :
    (cfg0.win 6).cut (grid0.coords t) X = ((cfg0.win 6).blk t).view.read (Elt Ideal) g := funext h

theorem flushed6_eq (c : Dev nD) (t : Fin cfg0.N) (hf : (cfg0.win 6).flush t = true) :
    (dats m 0 c).flushed 6 t = ((cfg0.win 6).blk t).view.read (Elt Ideal) (G (Cert.Spec.fMask (Tm m c))) := by
  have h1 : t.val % 2 = 1 := (flush0_6 t).mp hf
  have h0 : ¬t.val % 2 = 0 := by omega
  obtain ⟨hlt, h0', h1', hdiv⟩ := prev_facts t h1
  show (cfg0.win 6).cut (grid0.coords t) ((dats m 0 c).after 6 t) = _
  rw [after0_6, KPoints.outB_6 m c t h0 h1]
  refine flush_fun6 t _ _ fun j => ?_
  have hn : ((((cfg0.win 6).blk t).view.emb j) 0).val = t.val / 2 := by
    obtain ⟨-, -, -, -, e0, -, -⟩ := KBlocks.idx_out t
    have hj : (j 0).val < 1 := (j 0).isLt
    show win0_6.index t (0 : Fin 3) * 1 + 1 * (j 0).val = t.val / 2
    omega
  rw [Pay.pay1_pay6_apply]
  unfold G Gn
  refine Finset.sum_congr rfl fun y _ => ?_
  obtain ⟨r, w, rfl⟩ : ∃ (r : Fin 256) (w : Fin 1024), y = ix2 r w := ⟨y 0, y 1, eq_ix2 y⟩
  rw [Pay.pay22_apply, KPoints.scrA_4 m c ⟨t.val - 1, hlt⟩ h0' h1', Pay.pay22_apply, Pay.pay11_apply]
  rw [KBlocks.contrib_mask _ (Tm m c) r w _ (Cert.Spec.lo r)
        (readsT m c ⟨t.val - 1, hlt⟩ r w _ _ (hn.trans hdiv.symm) (by show r.val = (t.val - 1) % 2 * 256 + r.val; omega)),
      KBlocks.contrib_mask _ (Tm m c) r w _ (Cert.Spec.hi r)
        (readsT m c t r w _ _ hn (by show 256 + r.val = t.val % 2 * 256 + r.val; omega))]

theorem mem_blk6 (t : Fin cfg0.N) (i : S8x1x128.Idx) :
    i ∈ ((cfg0.win 6).blk t).view.set ↔ ∀ a : Fin 3, win0_6.index t a * S1x1x128.size a ≤ (i a).val ∧ (i a).val < win0_6.index t a * S1x1x128.size a + S1x1x128.size a := by
  show i ∈ ((View.whole main_v0_4).slice (win0_6.rect t)).set ↔ _
  rw [View.set_slice_whole, Rect.mem_set_unit]
  exact Iff.rfl

theorem cover6 (i : S8x1x128.Idx) : ∃ t : Fin cfg0.N, (cfg0.win 6).flush t = true ∧ i ∈ ((cfg0.win 6).blk t).view.set := by
  have hN : cfg0.N = 16 := N_0
  have hi0 : (i 0).val < 8 := (i 0).isLt
  have hi1 : (i 1).val < 1 := (i 1).isLt
  have hi2 : (i 2).val < 128 := (i 2).isLt
  have hlt : 2 * (i 0).val + 1 < cfg0.N := by omega
  obtain ⟨-, -, -, -, e0, e1, e2⟩ := KBlocks.idx_out (⟨2 * (i 0).val + 1, hlt⟩ : Fin cfg0.N)
  have e0' : win0_6.index (⟨2 * (i 0).val + 1, hlt⟩ : Fin cfg0.N) (0 : Fin 3) = (i 0).val := by
    rw [e0]; show (2 * (i 0).val + 1) / 2 = (i 0).val; omega
  refine ⟨⟨2 * (i 0).val + 1, hlt⟩, (flush0_6 _).mpr (by show (2 * (i 0).val + 1) % 2 = 1; omega), ?_⟩
  rw [mem_blk6]
  intro a
  match a with
  | ⟨0, _⟩ => show win0_6.index (⟨2 * (i 0).val + 1, hlt⟩ : Fin cfg0.N) (0 : Fin 3) * 1 ≤ (i 0).val ∧ (i 0).val < win0_6.index (⟨2 * (i 0).val + 1, hlt⟩ : Fin cfg0.N) (0 : Fin 3) * 1 + 1; omega
  | ⟨1, _⟩ => show win0_6.index (⟨2 * (i 0).val + 1, hlt⟩ : Fin cfg0.N) (1 : Fin 3) * 1 ≤ (i 1).val ∧ (i 1).val < win0_6.index (⟨2 * (i 0).val + 1, hlt⟩ : Fin cfg0.N) (1 : Fin 3) * 1 + 1; omega
  | ⟨2, _⟩ => show win0_6.index (⟨2 * (i 0).val + 1, hlt⟩ : Fin cfg0.N) (2 : Fin 3) * 128 ≤ (i 2).val ∧ (i 2).val < win0_6.index (⟨2 * (i 0).val + 1, hlt⟩ : Fin cfg0.N) (2 : Fin 3) * 128 + 128; omega

/-- Result array 4 after the run. -/
theorem final6 (c : Dev nD) : (dats m 0 c).arrAt 6 cfg0.N = G (Cert.Spec.fMask (Tm m c)) :=
  (dats m 0 c).arrAt_eq_of_cover 6 _ (flushed6_eq m c) cover6

end Cert.KernelIdeal.KArrays

end
-- ==== Proof.KRun.lean ====
/-
  The kernel program's run, read: its result is the specification's loss of the argument arrays.

  After the region the five result arrays hold, in every lane of block n, image n's totals (in the order the
  kernel adds them up); the host operations after the region add the eight entries (n, 0, 0) of each array and
  form the quotient. Summing the images' totals gives the totals over all pixels, so the quotient is the
  specification's.
-/
import proofs.«155759_j20598663151778_2_alg».proof.Proof.FrameDefsP
import proofs.«155759_j20598663151778_2_alg».proof.Proof.FrameRunP
import proofs.«155759_j20598663151778_2_alg».proof.Proof.Spec
import proofs.«155759_j20598663151778_2_alg».proof.Proof.Math
import proofs.«155759_j20598663151778_2_alg».proof.Proof.KTail
import proofs.«155759_j20598663151778_2_alg».proof.Proof.KTotals
import proofs.«155759_j20598663151778_2_alg».proof.Proof.KArrays
import Idealize.ShloMosaic.Lib.Pipeline.Value
import Idealize.ShloMosaic.Lib.StableHlo.Run
import Idealize.ShloMosaic.Lib.ValueIdx

set_option maxRecDepth 16384

noncomputable section

open Idealize.ShloMosaic Idealize.ShloMosaic.TcCoe Idealize.SL.Sem Idealize.ShloMosaic.ValueIdx Idealize.ShloMosaic.StableHlo
open Idealize.ShloMosaic.Pipeline (Dat)
open scoped BigOperators

namespace Cert.KernelIdeal.KRun

open Cert.KernelIdeal Cert.KernelIdeal.Gen Cert.KernelIdeal.GenP Cert.KernelIdeal.KArrays Cert.KernelIdeal.KTotals

variable (m : (ℓ : Loc nD τ sig) → Buf (Elt Ideal) ℓ) (ρ : Dev nD → PrngReg)

set_option maxHeartbeats 4000000 in
/-- The host operations after the region, from any contents of the five result arrays: the sums and the quotient. -/
theorem tail_after (W : Valuation τ sig (Elt Ideal)) :
    StableHlo.after (hostOps1 (F := Ideal)) W (Proc.devRef .tc main_v23)
      = Tail.hostTail (W (Proc.devRef .tc main_v0_0)) (W (Proc.devRef .tc main_v0_1)) (W (Proc.devRef .tc main_v0_2))
          (W (Proc.devRef .tc main_v0_3)) (W (Proc.devRef .tc main_v0_4)) := by
  after_results_simp
  rfl

/-- The program's result after the run: the specification's loss of the argument arrays. -/
theorem tail_value (c : Dev nD) :
    Pipeline.afterTail₀ cfgs (dats m) 0 (V0 m) [hostOps1] c main_v23
      = fun _ => Cert.Spec.result (Pm m c) (Tm m c) := by
  unfold Pipeline.afterTail₀
  show StableHlo.after hostOps1 _ (Proc.devRef .tc main_v23) = _
  rw [tail_after]
  have e2 := (Pipeline.withArrays_arr spec0 launch0.win.arr_inj c (V0 m c) (fun w => (dats m 0 c).arrAt w cfg0.N) 2).trans (final2 m c)
  have e3 := (Pipeline.withArrays_arr spec0 launch0.win.arr_inj c (V0 m c) (fun w => (dats m 0 c).arrAt w cfg0.N) 3).trans (final3 m c)
  have e4 := (Pipeline.withArrays_arr spec0 launch0.win.arr_inj c (V0 m c) (fun w => (dats m 0 c).arrAt w cfg0.N) 4).trans (final4 m c)
  have e5 := (Pipeline.withArrays_arr spec0 launch0.win.arr_inj c (V0 m c) (fun w => (dats m 0 c).arrAt w cfg0.N) 5).trans (final5 m c)
  have e6 := (Pipeline.withArrays_arr spec0 launch0.win.arr_inj c (V0 m c) (fun w => (dats m 0 c).arrAt w cfg0.N) 6).trans (final6 m c)
  show Tail.hostTail
      (Pipeline.withArrays spec0 c (V0 m c) (fun w => (dats m 0 c).arrAt w cfg0.N) (Proc.devRef .tc (Pipeline.arrRef spec0 2)))
      (Pipeline.withArrays spec0 c (V0 m c) (fun w => (dats m 0 c).arrAt w cfg0.N) (Proc.devRef .tc (Pipeline.arrRef spec0 3)))
      (Pipeline.withArrays spec0 c (V0 m c) (fun w => (dats m 0 c).arrAt w cfg0.N) (Proc.devRef .tc (Pipeline.arrRef spec0 4)))
      (Pipeline.withArrays spec0 c (V0 m c) (fun w => (dats m 0 c).arrAt w cfg0.N) (Proc.devRef .tc (Pipeline.arrRef spec0 5)))
      (Pipeline.withArrays spec0 c (V0 m c) (fun w => (dats m 0 c).arrAt w cfg0.N) (Proc.devRef .tc (Pipeline.arrRef spec0 6))) = _
  rw [e2, e3, e4, e5, e6]
  funext i
  have hi : i = ix0 := eq_ix0 i
  subst hi
  show Tail.hostTail _ _ _ _ _ ix0 = Cert.Spec.result _ _
  rw [Tail.hostTail_apply, sum_G, sum_G, sum_G, sum_G, sum_G]
  rfl

/-- The result buffer is not one of the pipeline's arrays. -/
theorem v23_rest : main_v23 ∈ Pipeline.restRefs sig cfg0.spec :=
  Pipeline.mem_restRefs_of main_v23 rfl (by decide)

/-- THE RUN, READ: every weakly fair execution terminates, the result is the specification's loss of the argument
    arrays, and the argument arrays end as they began. -/
theorem run : θ_run defs (onTc (τ := τ) (main (F := Ideal))) ⟨m, fun _ => 0, ρ⟩ fun r => ∀ c : Dev nD,
      r.2.mem ((c.tc : Thread nD τ).loc main_v23)
          = (fun _ => Cert.Spec.result (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
      ⟨((h c).2 main_v23 v23_rest).trans (tail_value m c),
       ((h c).1 0).trans (((dats m 0 c).arrAt_in 0 rfl _).trans ((A_eq m c 0).trans (V_main_arg0 m c))),
       ((h c).1 1).trans (((dats m 0 c).arrAt_in 1 rfl _).trans ((A_eq m c 1).trans (V_main_arg1 m c)))⟩)
    (run_main m ρ)

end Cert.KernelIdeal.KRun

end
-- ==== Proof.lean ====
/-
  The certificate of the weighted, masked cross-entropy kernel against its jnp reference.

  Both programs compute one number from a probability array [8, 19, 512, 1024] and a label array [8, 512, 1024]:
  the class-balanced mean, over the kept pixels and the 19 classes, of -log of the clipped probability of the
  right answer. The kernel selects p or 1 - p before one logarithm, accumulates five per-pixel quantities over a
  grid of 8 images × 2 half-images, and forms the quotient on the host; the reference blends two logarithms by a
  one-hot weight, weighs every (pixel, class) term by the pixel's class-balance weight and sums once.

  On the extended reals the two agree because every class term is non-negative (the logarithm of a number
  clipped to [ε, 1] is at most 0), so the weights — which may be the junk value of 0/0 when no pixel is positive
  or negative — distribute over the sums; because the one-hot blend of two logarithms is the logarithm of the
  selected argument; and because an integer count of at most 2^22 one-bit words does not wrap. No finiteness of
  the inputs is needed.

  `preserves` is trivial: the idealization rewrote nothing.
-/
import proofs.«155759_j20598663151778_2_alg».proof.Defs
import proofs.«155759_j20598663151778_2_alg».proof.Proof.Gen.Kernel
import proofs.«155759_j20598663151778_2_alg».proof.Proof.Gen.KernelIdeal
import proofs.«155759_j20598663151778_2_alg».proof.Proof.Gen.ReferenceIdeal
import proofs.«155759_j20598663151778_2_alg».proof.Proof.Gen.ReferenceIdeal.Run
import proofs.«155759_j20598663151778_2_alg».proof.Proof.Gen.ReferenceIdeal.Read
import proofs.«155759_j20598663151778_2_alg».proof.Proof.Gen.Pre_finite_inputs
import proofs.«155759_j20598663151778_2_alg».proof.Proof.BitsFrameRunP
import proofs.«155759_j20598663151778_2_alg».proof.Proof.FrameRunP
import proofs.«155759_j20598663151778_2_alg».proof.Proof.Spec
import proofs.«155759_j20598663151778_2_alg».proof.Proof.Math
import proofs.«155759_j20598663151778_2_alg».proof.Proof.RefValue
import proofs.«155759_j20598663151778_2_alg».proof.Proof.KRun
import Idealize.ShloMosaic.Adequacy
import Idealize.ShloMosaic.Init

noncomputable section

namespace Cert.Proof

open Idealize.ShloMosaic Idealize.SL.Sem

theorem frame_k : Cert.frame_Kernel := fun m ρ _ => Cert.Kernel.GenP.frame m ρ

theorem frame_ki : Cert.frame_KernelIdeal := fun m ρ _ => Cert.KernelIdeal.GenP.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the specification's loss of the (agreeing) argument arrays: the kernel's per pixel first, the
    reference's per (pixel, class) term, and the two arrangements are one number. -/
theorem algebraic : Cert.algebraic_KernelIdeal_ReferenceIdeal := by
  intro m ρ m' ρ' _ hagree
  refine ⟨_, Cert.KernelIdeal.KRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v44_eq, Cert.RefValue.ref_eq, (hagree c).1, (hagree c).2,
    Cert.Spec.resultR_eq_result]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
